-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S8192x2048 : Shape := ⟨2, ![8192, 2048]⟩
abbrev S2x16x2048 : Shape := ⟨3, ![2, 16, 2048]⟩
abbrev S2 : Shape := ⟨1, ![2]⟩
abbrev S1x16x2048 : Shape := ⟨3, ![1, 16, 2048]⟩
abbrev S16x2048 : Shape := ⟨2, ![16, 2048]⟩
abbrev S1 : Shape := ⟨1, ![1]⟩
abbrev S_ : Shape := ⟨0, ![]⟩

abbrev nBuf : Table → Nat
  | .hbm => 2
  | .local .scVector .vmem => 1
  | _ => 0

abbrev bufTy : (tb : Table) → Fin (nBuf tb) → BufTy
  | .hbm, ⟨0, _⟩ => ⟨S8192x2048, .f32⟩
  | .hbm, ⟨1, _⟩ => ⟨S8192x2048, .f32⟩
  | .local .scVector .vmem, ⟨0, _⟩ => ⟨S2x16x2048, .f32⟩
  | _, _ => ⟨S8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_4 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x16x2048_S1x16x2048_0_0_0 : ∀ a, (![0, 0, 0] : Fin 3 → Nat) a + S1x16x2048.size a ≤ S2x16x2048.size a
  squeezes_S1x16x2048_S16x2048 : S1x16x2048.Squeezes S16x2048
  inb_S2_S1_0 : ∀ a, (![0] : Fin 1 → Nat) a + S1.size a ≤ S2.size a
  squeezes_S1_S_ : S1.Squeezes S_
  inb_S2x16x2048_S1x16x2048_1_0_0 : ∀ a, (![1, 0, 0] : Fin 3 → Nat) a + S1x16x2048.size a ≤ S2x16x2048.size a
  inb_S2_S1_1 : ∀ a, (![1] : Fin 1 → Nat) a + S1.size a ≤ S2.size a
  hcc0_scratch1 : 0 + S2.numel ≤ 4
  hcc0_scratch2 : 2 + S2.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 16), ∀ a, (k0_off1 i (BitVec.ofNat 32 (16 * r.val))) a + S16x2048.size a ≤ S8192x2048.size a

variable [Facts₀]

abbrev cc0_scratch1 : DmaSems sig S2 := SemArray.consecutive 0 S2 hcc0_scratch1
abbrev cc0_scratch2 : DmaSems sig S2 := SemArray.consecutive 2 S2 hcc0_scratch2

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.BitsSetup.lean ====
/-
  The kernel as printed, read at the word level, as one vector call on two SparseCores of sixteen tiles. Tile (c, s) owns the 256 rows
  [256 (2 s + c), +256) of the input `x` and of the output `o`, cut into sixteen chunks of sixteen rows; chunk r is
  copied from `x` into one of two scratch slots (slot r mod 2) and from there into the same rows of `o`.
  This module: the program in the launch theorem's vocabulary, the ghost state (the handshakes' rounds beside
  the transfers' counters), the chunk and slot views as the body slices them, and what the handshakes carry:
  to a tile its chunks of `x` (kept) and of `o` (at the launch contents), back from it the same chunks of `o`
  holding `x`'s rows.
-/
import proofs.«201897_g75462575391115_cont_9to1_m_892_24_alg».proof.Defs
import Idealize.ShloMosaic.Lib.SparseCore.Launch
import Idealize.ShloMosaic.Lib.Pipeline.Kit
import Idealize.ShloMosaic.Lib.Tactic
import proofs.«201897_g75462575391115_cont_9to1_m_892_24_alg».proof.Proof.Gen.Kernel
import proofs.«201897_g75462575391115_cont_9to1_m_892_24_alg».proof.Proof.Gen.Kernel.Skeleton

noncomputable section

namespace Cert.Proof.MoveBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the chunks, the slots -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

/-- The input's launch contents, read as contents of the output array (the two arrays have one shape and element type). -/
abbrev xo (d : Dev nD) : Buf (Elt F) (oLoc d) := m (xLoc d)

abbrev xW : Memref sig .scVector .hbm S8192x2048 .f32 := Memref.whole main_arg0_scv
abbrev oW : Memref sig .scVector .hbm S8192x2048 .f32 := Memref.whole main_v0_scv
abbrev bW : Memref sig .scVector .vmem S2x16x2048 .f32 := Memref.whole cc0_scratch0

/-- Chunk `r` of the tile at grid point `L`: sixteen rows of the input from row 512 (L 1) + 256 (L 0) + 16 r, -/
abbrev xC (L : grid0.Coords) (r : Fin 16) : Memref sig .scVector .hbm S16x2048 .f32 :=
  xW.slice (Rect.unit (s := S8192x2048) (k0_off1 L (BitVec.ofNat 32 (16 * r.val))) S16x2048.size (k0_off1_inb L r)) (fun _ => rfl)
/-- and the same rows of the output. -/
abbrev oC (L : grid0.Coords) (r : Fin 16) : Memref sig .scVector .hbm S16x2048 .f32 :=
  oW.slice (Rect.unit (s := S8192x2048) (k0_off1 L (BitVec.ofNat 32 (16 * r.val))) S16x2048.size (k0_off1_inb L r)) (fun _ => rfl)
/-- The scratch's two slots. -/
abbrev slot0 : Memref sig .scVector .vmem S16x2048 .f32 :=
  (bW.slice (Rect.unit (s := S2x16x2048) ![0, 0, 0] S1x16x2048.size inb_S2x16x2048_S1x16x2048_0_0_0) (fun _ => rfl)).squeeze S16x2048 squeezes_S1x16x2048_S16x2048
abbrev slot1 : Memref sig .scVector .vmem S16x2048 .f32 :=
  (bW.slice (Rect.unit (s := S2x16x2048) ![1, 0, 0] S1x16x2048.size inb_S2x16x2048_S1x16x2048_1_0_0) (fun _ => rfl)).squeeze S16x2048 squeezes_S1x16x2048_S16x2048

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## What the handshakes carry -/

/-- Chunk `r` of tile `L` on its way in: the input's rows at their launch contents, the output's at theirs. -/
def goAt (d : Dev nD) (L : grid0.Coords) (r : Fin 16) : sProp 𝕄 :=
  iprop((xLoc d ↦[(xC L r).view.set]{fullShare} m (xLoc d)) ∗ oLoc d ↦[(oC L r).view.set]{fullShare} m (oLoc d))
/-- The same chunk on its way back: the output's rows hold the input's. -/
def tdAt (d : Dev nD) (L : grid0.Coords) (r : Fin 16) : sProp 𝕄 :=
  iprop((xLoc d ↦[(xC L r).view.set]{fullShare} m (xLoc d)) ∗ oLoc d ↦[(oC L r).view.set]{fullShare} xo m d)

def goT (d : Dev nD) (L : grid0.Coords) : sProp 𝕄 := bigSep Finset.univ fun r : Fin 16 => goAt m d L r
def tdT (d : Dev nD) (L : grid0.Coords) : sProp 𝕄 := bigSep Finset.univ fun r : Fin 16 => tdAt m d L r

/-- A SparseCore is handed what its sixteen tiles are, and hands back what they do. -/
def P : (K (F := F)).Pay (nD := nD) (Val := Elt F) (Name := ℕ) (U := UU) where
  st := fun q d c => match q with
    | 0 => bigSep Finset.univ fun i : Fin ((K (F := F)).nSub 0) => goT m d (coordsV (Fin.cast nCore_zero c) (Fin.cast nSub_zero i))
  dn := fun q d c => match q with
    | 0 => bigSep Finset.univ fun i : Fin ((K (F := F)).nSub 0) => tdT m d (coordsV (Fin.cast nCore_zero c) (Fin.cast nSub_zero i))
  go := fun q d c i => match q with | 0 => goT m d (coordsV (Fin.cast nCore_zero c) (Fin.cast nSub_zero i))
  td := fun q d c i => match q with | 0 => tdT m d (coordsV (Fin.cast nCore_zero c) (Fin.cast nSub_zero i))
  x := fun _ _ => iprop(emp)

instance goAt_storable (d : Dev nD) (L : grid0.Coords) (r : Fin 16) : BI.Storable (upEmb : UEmb _ 𝕄) (goAt m d L r) := by
  unfold goAt; infer_instance
instance tdAt_storable (d : Dev nD) (L : grid0.Coords) (r : Fin 16) : BI.Storable (upEmb : UEmb _ 𝕄) (tdAt m d L r) := by
  unfold tdAt; infer_instance
instance goT_storable (d : Dev nD) (L : grid0.Coords) : BI.Storable (upEmb : UEmb _ 𝕄) (goT m d L) := by
  unfold goT; infer_instance
instance tdT_storable (d : Dev nD) (L : grid0.Coords) : BI.Storable (upEmb : UEmb _ 𝕄) (tdT m d L) := by
  unfold tdT; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.MoveBits

end
-- ==== Proof.BitsBody.lean ====
/-
  One tile's task, run once at a symbolic grid point. The tile starts the copies of its first two chunks of the
  input into the two scratch slots; then, chunk by chunk, it waits for the chunk to have landed in its slot, starts
  the copy of the slot into the same rows of the output, and (while chunks remain) waits for that copy before it
  refills the slot with the chunk two further on; at the end it waits for the last two copies out. Each of the
  four counters carries at most one copy at a time, and no copy's source or destination is touched while it is
  under way, so every chunk of the output ends holding exactly what was read from the same rows of the input.
-/
import proofs.«201897_g75462575391115_cont_9to1_m_892_24_alg».proof.Proof.BitsSetup

noncomputable section

namespace Cert.Proof.MoveBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- What a whole-view piece at the head of a list of pieces reads back: its payload, whatever was written before. -/
theorem read_writes_whole_cons {sig' : RefSig} {κ : Kind} {sp : Space} {s : Shape} {e : EltTy} {Val : EltTy → Type}
    (v : View sig' κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- Held by a view's own elements, two contents that the view reads alike are one assertion. -/
theorem pts_of_read_eq [∀ e, Nonempty (Elt F e)] {cs : Space} {s : Shape} {e : EltTy} (c : Thread nD τ) (M : Memref sig c.2.kind cs s e)
    (g1 g2 : Buf (Elt F) (M.view.loc c)) (h : M.view.read (Elt F) g1 = M.view.read (Elt F) g2) :
    (M.view.loc c ↦[M.view.set]{fullShare} g1 : sProp 𝕄) = M.view.loc c ↦[M.view.set]{fullShare} g2 := by
  rw [Idealize.ShloMosaic.pointsTo_rep c M g1, Idealize.ShloMosaic.pointsTo_rep c M g2, h]

/-- Recording one more wait at no call's index keeps the recorded waits among the given ones and those. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev cellN (k : DmaSem sig) : GSem nD τ sig := (V d (cV L) (jV L), SemLoc.dma k)

/-- A chunk of the output written whole with what a slot read back after a chunk of the input was written whole
    into it holds that chunk of the input, when the two chunks are the same rows of their arrays. -/
theorem o_done [∀ e, Nonempty (Elt F e)] (Mo Mx : Memref sig .scVector .hbm S16x2048 .f32) (Ms : Memref sig .scVector .vmem S16x2048 .f32)
    (fo : Buf (Elt F) (Mo.view.loc (V d (cV L) (jV L)))) (fs : Buf (Elt F) (Ms.view.loc (V d (cV L) (jV L)))) (fx : Buf (Elt F) (Mx.view.loc (V d (cV L) (jV L))))
    (g : Buf (Elt F) (Mo.view.loc (V d (cV L) (jV L)))) (Ls : List (View.Piece (Elt F) S16x2048 .f32))
    (hx : Mo.view.read (Elt F) g = Mx.view.read (Elt F) fx) :
    (Mo.view.loc (V d (cV L) (jV L)) ↦[Mo.view.set]{fullShare} Mo.view.writes (Elt F) fo
        [⟨Rect.whole S16x2048, ReadAs.same.apply (Ms.view.read (Elt F) (Ms.view.writes (Elt F) fs
          (⟨Rect.whole S16x2048, ReadAs.same.apply (Mx.view.read (Elt F) fx)⟩ :: Ls)))⟩] : sProp 𝕄)
      ⊢ Mo.view.loc (V d (cV L) (jV L)) ↦[Mo.view.set]{fullShare} g := by
  refine Entails.of_eq (pts_of_read_eq (V d (cV L) (jV L)) Mo _ g ?_)
  rw [Idealize.ShloMosaic.View.read_writes_whole, ReadAs.apply_same, read_writes_whole_cons, ReadAs.apply_same, hx]

local notation "xAt(" n "," k ")" => (Memref.slice xW (Rect.unit (s := S8192x2048) (k0_off1 L n) S16x2048.size (k0_off1_inb L k)) (fun _ => rfl))
local notation "oAt(" n "," k ")" => (Memref.slice oW (Rect.unit (s := S8192x2048) (k0_off1 L n) S16x2048.size (k0_off1_inb L k)) (fun _ => rfl))

/-- The same rows of the two arrays: reading the input's launch contents as the output's through the output's chunk
    is reading them through the input's. -/
theorem read_xo (n : BitVec 32) (k : Fin 16) (h : ∀ a, k0_off1 L n a + S16x2048.size a ≤ S8192x2048.size a) :
    (Memref.slice oW (Rect.unit (s := S8192x2048) (k0_off1 L n) S16x2048.size h) (fun _ => rfl)).view.read (Elt F) (xo m d)
      = (Memref.slice xW (Rect.unit (s := S8192x2048) (k0_off1 L n) S16x2048.size h) (fun _ => rfl)).view.read (Elt F) (m (xLoc d)) := rfl

/-- One tile's task, run once at a symbolic grid point: the sixteen chunks of the input it was handed are kept, the
    sixteen chunks of the output end holding the input's rows, the two slots, the four counters and what the
    tile owes come back. -/
theorem tile_run [∀ e, Nonempty (Elt F e)] (O : CellTallies nD τ sig (HIx 1)) (W : Waits sig (HIx 1))
    (f0 : Buf (Elt F) ((V d (cV L) (jV L)).loc cc0_scratch0)) (f1 : Buf (Elt F) ((V d (cV L) (jV L)).loc cc0_scratch0)) (R : sProp 𝕄) :
    iprop((Transfers.MayWaits (V d (cV L) (jV L)) (none : HIx 1) O : sProp 𝕄)
        ∗ (((xAt(0#32, 0)).view.loc (V d (cV L) (jV L)) ↦[(xAt(0#32, 0)).view.set]{fullShare} m (xLoc d))
          ∗ ((xAt(16#32, 1)).view.loc (V d (cV L) (jV L)) ↦[(xAt(16#32, 1)).view.set]{fullShare} m (xLoc d))
          ∗ ((xAt(32#32, 2)).view.loc (V d (cV L) (jV L)) ↦[(xAt(32#32, 2)).view.set]{fullShare} m (xLoc d))
          ∗ ((xAt(48#32, 3)).view.loc (V d (cV L) (jV L)) ↦[(xAt(48#32, 3)).view.set]{fullShare} m (xLoc d))
          ∗ ((xAt(64#32, 4)).view.loc (V d (cV L) (jV L)) ↦[(xAt(64#32, 4)).view.set]{fullShare} m (xLoc d))
          ∗ ((xAt(80#32, 5)).view.loc (V d (cV L) (jV L)) ↦[(xAt(80#32, 5)).view.set]{fullShare} m (xLoc d))
          ∗ ((xAt(96#32, 6)).view.loc (V d (cV L) (jV L)) ↦[(xAt(96#32, 6)).view.set]{fullShare} m (xLoc d))
          ∗ ((xAt(112#32, 7)).view.loc (V d (cV L) (jV L)) ↦[(xAt(112#32, 7)).view.set]{fullShare} m (xLoc d))
          ∗ ((xAt(128#32, 8)).view.loc (V d (cV L) (jV L)) ↦[(xAt(128#32, 8)).view.set]{fullShare} m (xLoc d))
          ∗ ((xAt(144#32, 9)).view.loc (V d (cV L) (jV L)) ↦[(xAt(144#32, 9)).view.set]{fullShare} m (xLoc d))
          ∗ ((xAt(160#32, 10)).view.loc (V d (cV L) (jV L)) ↦[(xAt(160#32, 10)).view.set]{fullShare} m (xLoc d))
          ∗ ((xAt(176#32, 11)).view.loc (V d (cV L) (jV L)) ↦[(xAt(176#32, 11)).view.set]{fullShare} m (xLoc d))
          ∗ ((xAt(192#32, 12)).view.loc (V d (cV L) (jV L)) ↦[(xAt(192#32, 12)).view.set]{fullShare} m (xLoc d))
          ∗ ((xAt(208#32, 13)).view.loc (V d (cV L) (jV L)) ↦[(xAt(208#32, 13)).view.set]{fullShare} m (xLoc d))
          ∗ ((xAt(224#32, 14)).view.loc (V d (cV L) (jV L)) ↦[(xAt(224#32, 14)).view.set]{fullShare} m (xLoc d))
          ∗ ((xAt(240#32, 15)).view.loc (V d (cV L) (jV L)) ↦[(xAt(240#32, 15)).view.set]{fullShare} m (xLoc d)))
        ∗ (((oAt(0#32, 0)).view.loc (V d (cV L) (jV L)) ↦[(oAt(0#32, 0)).view.set]{fullShare} m (oLoc d))
          ∗ ((oAt(16#32, 1)).view.loc (V d (cV L) (jV L)) ↦[(oAt(16#32, 1)).view.set]{fullShare} m (oLoc d))
          ∗ ((oAt(32#32, 2)).view.loc (V d (cV L) (jV L)) ↦[(oAt(32#32, 2)).view.set]{fullShare} m (oLoc d))
          ∗ ((oAt(48#32, 3)).view.loc (V d (cV L) (jV L)) ↦[(oAt(48#32, 3)).view.set]{fullShare} m (oLoc d))
          ∗ ((oAt(64#32, 4)).view.loc (V d (cV L) (jV L)) ↦[(oAt(64#32, 4)).view.set]{fullShare} m (oLoc d))
          ∗ ((oAt(80#32, 5)).view.loc (V d (cV L) (jV L)) ↦[(oAt(80#32, 5)).view.set]{fullShare} m (oLoc d))
          ∗ ((oAt(96#32, 6)).view.loc (V d (cV L) (jV L)) ↦[(oAt(96#32, 6)).view.set]{fullShare} m (oLoc d))
          ∗ ((oAt(112#32, 7)).view.loc (V d (cV L) (jV L)) ↦[(oAt(112#32, 7)).view.set]{fullShare} m (oLoc d))
          ∗ ((oAt(128#32, 8)).view.loc (V d (cV L) (jV L)) ↦[(oAt(128#32, 8)).view.set]{fullShare} m (oLoc d))
          ∗ ((oAt(144#32, 9)).view.loc (V d (cV L) (jV L)) ↦[(oAt(144#32, 9)).view.set]{fullShare} m (oLoc d))
          ∗ ((oAt(160#32, 10)).view.loc (V d (cV L) (jV L)) ↦[(oAt(160#32, 10)).view.set]{fullShare} m (oLoc d))
          ∗ ((oAt(176#32, 11)).view.loc (V d (cV L) (jV L)) ↦[(oAt(176#32, 11)).view.set]{fullShare} m (oLoc d))
          ∗ ((oAt(192#32, 12)).view.loc (V d (cV L) (jV L)) ↦[(oAt(192#32, 12)).view.set]{fullShare} m (oLoc d))
          ∗ ((oAt(208#32, 13)).view.loc (V d (cV L) (jV L)) ↦[(oAt(208#32, 13)).view.set]{fullShare} m (oLoc d))
          ∗ ((oAt(224#32, 14)).view.loc (V d (cV L) (jV L)) ↦[(oAt(224#32, 14)).view.set]{fullShare} m (oLoc d))
          ∗ ((oAt(240#32, 15)).view.loc (V d (cV L) (jV L)) ↦[(oAt(240#32, 15)).view.set]{fullShare} m (oLoc d)))
        ∗ ((slot0).view.loc (V d (cV L) (jV L)) ↦[(slot0).view.set]{fullShare} f0)
        ∗ ((slot1).view.loc (V d (cV L) (jV L)) ↦[(slot1).view.set]{fullShare} f1)
        ∗ semVal (cellN d L ⟨0, by decide⟩) 0 ∗ semVal (cellN d L ⟨1, by decide⟩) 0 ∗ semVal (cellN d L ⟨2, by decide⟩) 0 ∗ semVal (cellN d L ⟨3, by decide⟩) 0
        ∗ owes (V d (cV L) (jV L)) O W ∗ R)
      ⊢ wp frame (wpE (defs₀ (F := F)) 𝒱₀ (V d (cV L) (jV L)) none) Set.univ
          (cc0_k L xW (Memref.isWhole_whole _) oW (Memref.isWhole_whole _) bW (Memref.isWhole_whole _) cc0_scratch1 cc0_scratch2)
          fun _ => iprop((((xAt(0#32, 0)).view.loc (V d (cV L) (jV L)) ↦[(xAt(0#32, 0)).view.set]{fullShare} m (xLoc d))
          ∗ ((xAt(16#32, 1)).view.loc (V d (cV L) (jV L)) ↦[(xAt(16#32, 1)).view.set]{fullShare} m (xLoc d))
          ∗ ((xAt(32#32, 2)).view.loc (V d (cV L) (jV L)) ↦[(xAt(32#32, 2)).view.set]{fullShare} m (xLoc d))
          ∗ ((xAt(48#32, 3)).view.loc (V d (cV L) (jV L)) ↦[(xAt(48#32, 3)).view.set]{fullShare} m (xLoc d))
          ∗ ((xAt(64#32, 4)).view.loc (V d (cV L) (jV L)) ↦[(xAt(64#32, 4)).view.set]{fullShare} m (xLoc d))
          ∗ ((xAt(80#32, 5)).view.loc (V d (cV L) (jV L)) ↦[(xAt(80#32, 5)).view.set]{fullShare} m (xLoc d))
          ∗ ((xAt(96#32, 6)).view.loc (V d (cV L) (jV L)) ↦[(xAt(96#32, 6)).view.set]{fullShare} m (xLoc d))
          ∗ ((xAt(112#32, 7)).view.loc (V d (cV L) (jV L)) ↦[(xAt(112#32, 7)).view.set]{fullShare} m (xLoc d))
          ∗ ((xAt(128#32, 8)).view.loc (V d (cV L) (jV L)) ↦[(xAt(128#32, 8)).view.set]{fullShare} m (xLoc d))
          ∗ ((xAt(144#32, 9)).view.loc (V d (cV L) (jV L)) ↦[(xAt(144#32, 9)).view.set]{fullShare} m (xLoc d))
          ∗ ((xAt(160#32, 10)).view.loc (V d (cV L) (jV L)) ↦[(xAt(160#32, 10)).view.set]{fullShare} m (xLoc d))
          ∗ ((xAt(176#32, 11)).view.loc (V d (cV L) (jV L)) ↦[(xAt(176#32, 11)).view.set]{fullShare} m (xLoc d))
          ∗ ((xAt(192#32, 12)).view.loc (V d (cV L) (jV L)) ↦[(xAt(192#32, 12)).view.set]{fullShare} m (xLoc d))
          ∗ ((xAt(208#32, 13)).view.loc (V d (cV L) (jV L)) ↦[(xAt(208#32, 13)).view.set]{fullShare} m (xLoc d))
          ∗ ((xAt(224#32, 14)).view.loc (V d (cV L) (jV L)) ↦[(xAt(224#32, 14)).view.set]{fullShare} m (xLoc d))
          ∗ ((xAt(240#32, 15)).view.loc (V d (cV L) (jV L)) ↦[(xAt(240#32, 15)).view.set]{fullShare} m (xLoc d)))
        ∗ (((oAt(0#32, 0)).view.loc (V d (cV L) (jV L)) ↦[(oAt(0#32, 0)).view.set]{fullShare} xo m d)
          ∗ ((oAt(16#32, 1)).view.loc (V d (cV L) (jV L)) ↦[(oAt(16#32, 1)).view.set]{fullShare} xo m d)
          ∗ ((oAt(32#32, 2)).view.loc (V d (cV L) (jV L)) ↦[(oAt(32#32, 2)).view.set]{fullShare} xo m d)
          ∗ ((oAt(48#32, 3)).view.loc (V d (cV L) (jV L)) ↦[(oAt(48#32, 3)).view.set]{fullShare} xo m d)
          ∗ ((oAt(64#32, 4)).view.loc (V d (cV L) (jV L)) ↦[(oAt(64#32, 4)).view.set]{fullShare} xo m d)
          ∗ ((oAt(80#32, 5)).view.loc (V d (cV L) (jV L)) ↦[(oAt(80#32, 5)).view.set]{fullShare} xo m d)
          ∗ ((oAt(96#32, 6)).view.loc (V d (cV L) (jV L)) ↦[(oAt(96#32, 6)).view.set]{fullShare} xo m d)
          ∗ ((oAt(112#32, 7)).view.loc (V d (cV L) (jV L)) ↦[(oAt(112#32, 7)).view.set]{fullShare} xo m d)
          ∗ ((oAt(128#32, 8)).view.loc (V d (cV L) (jV L)) ↦[(oAt(128#32, 8)).view.set]{fullShare} xo m d)
          ∗ ((oAt(144#32, 9)).view.loc (V d (cV L) (jV L)) ↦[(oAt(144#32, 9)).view.set]{fullShare} xo m d)
          ∗ ((oAt(160#32, 10)).view.loc (V d (cV L) (jV L)) ↦[(oAt(160#32, 10)).view.set]{fullShare} xo m d)
          ∗ ((oAt(176#32, 11)).view.loc (V d (cV L) (jV L)) ↦[(oAt(176#32, 11)).view.set]{fullShare} xo m d)
          ∗ ((oAt(192#32, 12)).view.loc (V d (cV L) (jV L)) ↦[(oAt(192#32, 12)).view.set]{fullShare} xo m d)
          ∗ ((oAt(208#32, 13)).view.loc (V d (cV L) (jV L)) ↦[(oAt(208#32, 13)).view.set]{fullShare} xo m d)
          ∗ ((oAt(224#32, 14)).view.loc (V d (cV L) (jV L)) ↦[(oAt(224#32, 14)).view.set]{fullShare} xo m d)
          ∗ ((oAt(240#32, 15)).view.loc (V d (cV L) (jV L)) ↦[(oAt(240#32, 15)).view.set]{fullShare} xo m d))
        ∗ (∃ f, (slot0).view.loc (V d (cV L) (jV L)) ↦[(slot0).view.set]{fullShare} f)
        ∗ (∃ f, (slot1).view.loc (V d (cV L) (jV L)) ↦[(slot1).view.set]{fullShare} f)
        ∗ semVal (cellN d L ⟨0, by decide⟩) 0 ∗ semVal (cellN d L ⟨1, by decide⟩) 0 ∗ semVal (cellN d L ⟨2, by decide⟩) 0 ∗ semVal (cellN d L ⟨3, by decide⟩) 0
        ∗ (∃ W', ⌜∀ p ∈ W', p ∈ W ∨ p.2 = none⌝ ∗ owes (V d (cV L) (jV L)) O W') ∗ R) := by
  unfold cc0_k
  iintro ⟨#Hmw, ⟨Hx0, Hx1, Hx2, Hx3, Hx4, Hx5, Hx6, Hx7, Hx8, Hx9, Hx10, Hx11, Hx12, Hx13, Hx14, Hx15⟩,
    ⟨Ho0, Ho1, Ho2, Ho3, Ho4, Ho5, Ho6, Ho7, Ho8, Ho9, Ho10, Ho11, Ho12, Ho13, Ho14, Ho15⟩, Hs0, Hs1, Hc0, Hc1, Hc2, Hc3, HO, HR⟩
  sl_exec_parts (disch := exact View.amount_pos _ _ (show 0 < S16x2048.numel by decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ho0 Ho1 Ho2 Ho3 Ho4 Ho5 Ho6 Ho7 Ho8 Ho9 Ho10 Ho11 Ho12 Ho13 Ho14 Ho15]
  · isplitl [Ho0]
    · iapply (o_done d L (oAt(0#32, 0)) (xAt(0#32, 0)) slot0 _ _ (m (xLoc d)) (xo m d) _ (read_xo m d L 0#32 0 _)); iexact Ho0
    isplitl [Ho1]
    · iapply (o_done d L (oAt(16#32, 1)) (xAt(16#32, 1)) slot1 _ _ (m (xLoc d)) (xo m d) _ (read_xo m d L 16#32 1 _)); iexact Ho1
    isplitl [Ho2]
    · iapply (o_done d L (oAt(32#32, 2)) (xAt(32#32, 2)) slot0 _ _ (m (xLoc d)) (xo m d) _ (read_xo m d L 32#32 2 _)); iexact Ho2
    isplitl [Ho3]
    · iapply (o_done d L (oAt(48#32, 3)) (xAt(48#32, 3)) slot1 _ _ (m (xLoc d)) (xo m d) _ (read_xo m d L 48#32 3 _)); iexact Ho3
    isplitl [Ho4]
    · iapply (o_done d L (oAt(64#32, 4)) (xAt(64#32, 4)) slot0 _ _ (m (xLoc d)) (xo m d) _ (read_xo m d L 64#32 4 _)); iexact Ho4
    isplitl [Ho5]
    · iapply (o_done d L (oAt(80#32, 5)) (xAt(80#32, 5)) slot1 _ _ (m (xLoc d)) (xo m d) _ (read_xo m d L 80#32 5 _)); iexact Ho5
    isplitl [Ho6]
    · iapply (o_done d L (oAt(96#32, 6)) (xAt(96#32, 6)) slot0 _ _ (m (xLoc d)) (xo m d) _ (read_xo m d L 96#32 6 _)); iexact Ho6
    isplitl [Ho7]
    · iapply (o_done d L (oAt(112#32, 7)) (xAt(112#32, 7)) slot1 _ _ (m (xLoc d)) (xo m d) _ (read_xo m d L 112#32 7 _)); iexact Ho7
    isplitl [Ho8]
    · iapply (o_done d L (oAt(128#32, 8)) (xAt(128#32, 8)) slot0 _ _ (m (xLoc d)) (xo m d) _ (read_xo m d L 128#32 8 _)); iexact Ho8
    isplitl [Ho9]
    · iapply (o_done d L (oAt(144#32, 9)) (xAt(144#32, 9)) slot1 _ _ (m (xLoc d)) (xo m d) _ (read_xo m d L 144#32 9 _)); iexact Ho9
    isplitl [Ho10]
    · iapply (o_done d L (oAt(160#32, 10)) (xAt(160#32, 10)) slot0 _ _ (m (xLoc d)) (xo m d) _ (read_xo m d L 160#32 10 _)); iexact Ho10
    isplitl [Ho11]
    · iapply (o_done d L (oAt(176#32, 11)) (xAt(176#32, 11)) slot1 _ _ (m (xLoc d)) (xo m d) _ (read_xo m d L 176#32 11 _)); iexact Ho11
    isplitl [Ho12]
    · iapply (o_done d L (oAt(192#32, 12)) (xAt(192#32, 12)) slot0 _ _ (m (xLoc d)) (xo m d) _ (read_xo m d L 192#32 12 _)); iexact Ho12
    isplitl [Ho13]
    · iapply (o_done d L (oAt(208#32, 13)) (xAt(208#32, 13)) slot1 _ _ (m (xLoc d)) (xo m d) _ (read_xo m d L 208#32 13 _)); iexact Ho13
    isplitl [Ho14]
    · iapply (o_done d L (oAt(224#32, 14)) (xAt(224#32, 14)) slot0 _ _ (m (xLoc d)) (xo m d) _ (read_xo m d L 224#32 14 _)); iexact Ho14
    iapply (o_done d L (oAt(240#32, 15)) (xAt(240#32, 15)) slot1 _ _ (m (xLoc d)) (xo m d) _ (read_xo m d L 240#32 15 _)); iexact Ho15
  isplitl [Hs0]; · iexists _; iexact Hs0
  isplitl [Hs1]; · iexists _; iexact Hs1
  isplitl [Hc0]; · iexact Hc0
  isplitl [Hc1]; · iexact Hc1
  isplitl [Hc2]; · iexact Hc2
  isplitl [Hc3]; · iexact Hc3
  isplitl [HO]
  · iexists _; isplitr
    rotate_left
    · iexact HO
    · ipureintro
      repeat (first | exact fun p hp => Or.inl hp | refine waits_ins _ ?_)
  iexact HR

end Tile

end Cert.Proof.MoveBits

end
-- ==== Proof.BitsCover.lean ====
import proofs.«201897_g75462575391115_cont_9to1_m_892_24_alg».proof.Proof.BitsSetup
noncomputable section
namespace Cert.Proof.MoveBits
open Cert.Kernel Cert.Kernel.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
variable {F : FTy → Type}
local notation "𝕄" => MT nD τ sig (Idealize.ShloMosaic.SparseCore.Cfg.HIx 1) (Elt F) ℕ UU ℕ

/-!
  Set algebra for the two arrays and the scratch.

  The arrays `x` and `o` have 8192 rows. Chunk r of SparseCore c, tile i is the sixteen rows from row
  512 i + 256 c + 16 r (c < 2, i < 16, r < 16): these 512 blocks of sixteen consecutive rows are pairwise disjoint
  (a row n lies in the one with i = n / 512, c = n % 512 / 256, r = n % 256 / 16) and cover the array, so the points-to
  of the whole array is the separating conjunction of the points-tos of the chunks.

  The scratch has first axis of size two; slot k is the elements whose first coordinate is k. The two are disjoint and
  cover the scratch, so its points-to is the separating conjunction of the slots' points-tos.
-/

/-- Membership in chunk r of the tile at grid point L: the row lies in the sixteen rows from 512 (L 1) + 256 (L 0) + 16 r. -/
theorem mem_xC (L : grid0.Coords) (r : Fin 16) (j : S8192x2048.Idx) :
    j ∈ (xC L r).view.set ↔ 512 * (L 1).val + 256 * (L 0).val + 16 * r.val ≤ (j 0).val
      ∧ (j 0).val < 512 * (L 1).val + 256 * (L 0).val + 16 * r.val + 16 := by
  show j ∈ ((View.whole main_arg0_scv).slice (Rect.unit (s := S8192x2048) (k0_off1 L (BitVec.ofNat 32 (16 * r.val))) S16x2048.size (k0_off1_inb L r))).set ↔ _
  rw [View.set_slice_whole, Rect.mem_set_unit, k0_off1_eq L r]
  have h1 : (j 1).val < 2048 := (j 1).isLt
  constructor
  · intro h
    exact h (0 : Fin 2)
  · rintro ⟨h0, h0'⟩ a
    have key : ∀ a : Fin 2, (![512 * (L 1).val + 256 * (L 0).val + 16 * r.val, 0] : Fin 2 → Nat) a ≤ (j a).val
        ∧ (j a).val < (![512 * (L 1).val + 256 * (L 0).val + 16 * r.val, 0] : Fin 2 → Nat) a + S16x2048.size a := by
      rw [Fin.forall_fin_two]
      exact ⟨⟨h0, h0'⟩, Nat.zero_le _, by show (j 1).val < 0 + 2048; omega⟩
    exact key a

theorem mem_oC (L : grid0.Coords) (r : Fin 16) (j : S8192x2048.Idx) :
    j ∈ (oC L r).view.set ↔ 512 * (L 1).val + 256 * (L 0).val + 16 * r.val ≤ (j 0).val
      ∧ (j 0).val < 512 * (L 1).val + 256 * (L 0).val + 16 * r.val + 16 := by
  show j ∈ ((View.whole main_v0_scv).slice (Rect.unit (s := S8192x2048) (k0_off1 L (BitVec.ofNat 32 (16 * r.val))) S16x2048.size (k0_off1_inb L r))).set ↔ _
  rw [View.set_slice_whole, Rect.mem_set_unit, k0_off1_eq L r]
  have h1 : (j 1).val < 2048 := (j 1).isLt
  constructor
  · intro h
    exact h (0 : Fin 2)
  · rintro ⟨h0, h0'⟩ a
    have key : ∀ a : Fin 2, (![512 * (L 1).val + 256 * (L 0).val + 16 * r.val, 0] : Fin 2 → Nat) a ≤ (j a).val
        ∧ (j a).val < (![512 * (L 1).val + 256 * (L 0).val + 16 * r.val, 0] : Fin 2 → Nat) a + S16x2048.size a := by
      rw [Fin.forall_fin_two]
      exact ⟨⟨h0, h0'⟩, Nat.zero_le _, by show (j 1).val < 0 + 2048; omega⟩
    exact key a

/-- The same for the chunk of SparseCore c, tile i. -/
theorem mem_xCV (c : Fin 2) (i : Fin 16) (r : Fin 16) (j : S8192x2048.Idx) :
    j ∈ (xC (coordsV c i) r).view.set ↔ 512 * i.val + 256 * c.val + 16 * r.val ≤ (j 0).val
      ∧ (j 0).val < 512 * i.val + 256 * c.val + 16 * r.val + 16 := mem_xC (coordsV c i) r j
theorem mem_oCV (c : Fin 2) (i : Fin 16) (r : Fin 16) (j : S8192x2048.Idx) :
    j ∈ (oC (coordsV c i) r).view.set ↔ 512 * i.val + 256 * c.val + 16 * r.val ≤ (j 0).val
      ∧ (j 0).val < 512 * i.val + 256 * c.val + 16 * r.val + 16 := mem_oC (coordsV c i) r j

theorem x_chunks (d : Dev nD) (f : Buf (Elt F) (xLoc d)) :
    (xLoc d ↦{fullShare} f : sProp 𝕄)
      = bigSep Finset.univ fun c : Fin 2 => bigSep Finset.univ fun i : Fin 16 => bigSep Finset.univ fun r : Fin 16 =>
          xLoc d ↦[(xC (coordsV c i) r).view.set]{fullShare} f := by
  classical
  have hcov : (Finset.univ : Finset (Idx (xLoc d)))
      = (Finset.univ : Finset (Fin 2 × Fin 16 × Fin 16)).biUnion fun t => (xC (coordsV t.1 t.2.1) t.2.2).view.set := by
    refine Finset.ext fun j => ⟨fun _ => ?_, fun _ => Finset.mem_univ _⟩
    have hj : ((j : S8192x2048.Idx) 0).val < 8192 := ((j : S8192x2048.Idx) 0).isLt
    rw [Finset.mem_biUnion]
    refine ⟨(⟨((j : S8192x2048.Idx) 0).val % 512 / 256, by omega⟩, ⟨((j : S8192x2048.Idx) 0).val / 512, by omega⟩,
      ⟨((j : S8192x2048.Idx) 0).val % 256 / 16, by omega⟩), Finset.mem_univ _, ?_⟩
    refine (mem_xCV ⟨((j : S8192x2048.Idx) 0).val % 512 / 256, by omega⟩ ⟨((j : S8192x2048.Idx) 0).val / 512, by omega⟩
      ⟨((j : S8192x2048.Idx) 0).val % 256 / 16, by omega⟩ j).mpr ?_
    show 512 * (((j : S8192x2048.Idx) 0).val / 512) + 256 * (((j : S8192x2048.Idx) 0).val % 512 / 256)
          + 16 * (((j : S8192x2048.Idx) 0).val % 256 / 16) ≤ ((j : S8192x2048.Idx) 0).val
      ∧ ((j : S8192x2048.Idx) 0).val < 512 * (((j : S8192x2048.Idx) 0).val / 512) + 256 * (((j : S8192x2048.Idx) 0).val % 512 / 256)
          + 16 * (((j : S8192x2048.Idx) 0).val % 256 / 16) + 16
    omega
  have hdisj : ∀ t ∈ (Finset.univ : Finset (Fin 2 × Fin 16 × Fin 16)), ∀ t' ∈ (Finset.univ : Finset (Fin 2 × Fin 16 × Fin 16)), t ≠ t' →
      Disjoint ((xC (coordsV t.1 t.2.1) t.2.2).view.set : Finset (Idx (xLoc d))) (xC (coordsV t'.1 t'.2.1) t'.2.2).view.set := by
    rintro ⟨c, i, r⟩ - ⟨c', i', r'⟩ - hne
    refine Finset.disjoint_left.mpr fun j hj hj' => hne ?_
    have h := (mem_xCV c i r j).mp hj
    have h' := (mem_xCV c' i' r' j).mp hj'
    have hc := c.isLt; have hc' := c'.isLt; have hr := r.isLt; have hr' := r'.isLt
    have hi : i = i' := Fin.ext (by omega)
    have hcc : c = c' := Fin.ext (by omega)
    have hrr : r = r' := Fin.ext (by omega)
    rw [hi, hcc, hrr]
  show (xLoc d ↦[Finset.univ]{fullShare} f : sProp 𝕄) = _
  rw [hcov, pointsTo_biUnion _ _ hdisj, bigSep_univ_prod]
  refine congrArg _ (funext fun c => ?_)
  rw [bigSep_univ_prod]

theorem o_chunks (d : Dev nD) (f : Buf (Elt F) (oLoc d)) :
    (oLoc d ↦{fullShare} f : sProp 𝕄)
      = bigSep Finset.univ fun c : Fin 2 => bigSep Finset.univ fun i : Fin 16 => bigSep Finset.univ fun r : Fin 16 =>
          oLoc d ↦[(oC (coordsV c i) r).view.set]{fullShare} f := by
  classical
  have hcov : (Finset.univ : Finset (Idx (oLoc d)))
      = (Finset.univ : Finset (Fin 2 × Fin 16 × Fin 16)).biUnion fun t => (oC (coordsV t.1 t.2.1) t.2.2).view.set := by
    refine Finset.ext fun j => ⟨fun _ => ?_, fun _ => Finset.mem_univ _⟩
    have hj : ((j : S8192x2048.Idx) 0).val < 8192 := ((j : S8192x2048.Idx) 0).isLt
    rw [Finset.mem_biUnion]
    refine ⟨(⟨((j : S8192x2048.Idx) 0).val % 512 / 256, by omega⟩, ⟨((j : S8192x2048.Idx) 0).val / 512, by omega⟩,
      ⟨((j : S8192x2048.Idx) 0).val % 256 / 16, by omega⟩), Finset.mem_univ _, ?_⟩
    refine (mem_oCV ⟨((j : S8192x2048.Idx) 0).val % 512 / 256, by omega⟩ ⟨((j : S8192x2048.Idx) 0).val / 512, by omega⟩
      ⟨((j : S8192x2048.Idx) 0).val % 256 / 16, by omega⟩ j).mpr ?_
    show 512 * (((j : S8192x2048.Idx) 0).val / 512) + 256 * (((j : S8192x2048.Idx) 0).val % 512 / 256)
          + 16 * (((j : S8192x2048.Idx) 0).val % 256 / 16) ≤ ((j : S8192x2048.Idx) 0).val
      ∧ ((j : S8192x2048.Idx) 0).val < 512 * (((j : S8192x2048.Idx) 0).val / 512) + 256 * (((j : S8192x2048.Idx) 0).val % 512 / 256)
          + 16 * (((j : S8192x2048.Idx) 0).val % 256 / 16) + 16
    omega
  have hdisj : ∀ t ∈ (Finset.univ : Finset (Fin 2 × Fin 16 × Fin 16)), ∀ t' ∈ (Finset.univ : Finset (Fin 2 × Fin 16 × Fin 16)), t ≠ t' →
      Disjoint ((oC (coordsV t.1 t.2.1) t.2.2).view.set : Finset (Idx (oLoc d))) (oC (coordsV t'.1 t'.2.1) t'.2.2).view.set := by
    rintro ⟨c, i, r⟩ - ⟨c', i', r'⟩ - hne
    refine Finset.disjoint_left.mpr fun j hj hj' => hne ?_
    have h := (mem_oCV c i r j).mp hj
    have h' := (mem_oCV c' i' r' j).mp hj'
    have hc := c.isLt; have hc' := c'.isLt; have hr := r.isLt; have hr' := r'.isLt
    have hi : i = i' := Fin.ext (by omega)
    have hcc : c = c' := Fin.ext (by omega)
    have hrr : r = r' := Fin.ext (by omega)
    rw [hi, hcc, hrr]
  show (oLoc d ↦[Finset.univ]{fullShare} f : sProp 𝕄) = _
  rw [hcov, pointsTo_biUnion _ _ hdisj, bigSep_univ_prod]
  refine congrArg _ (funext fun c => ?_)
  rw [bigSep_univ_prod]

/-- Slot k of the scratch is the elements whose first coordinate is k: a squeeze keeps the elements of the slice it squeezes. -/
theorem mem_slot0 (j : S2x16x2048.Idx) : j ∈ (slot0).view.set ↔ (j 0).val = 0 := by
  show j ∈ (((View.whole cc0_scratch0).slice (Rect.unit (s := S2x16x2048) ![0, 0, 0] S1x16x2048.size
    inb_S2x16x2048_S1x16x2048_0_0_0)).reshape S16x2048 squeezes_S1x16x2048_S16x2048.numel_eq).set ↔ _
  rw [View.set_reshape, View.set_slice_whole, Rect.mem_set_unit]
  have h1 : (j 1).val < 16 := (j 1).isLt
  have h2 : (j 2).val < 2048 := (j 2).isLt
  constructor
  · intro h
    have h0 : (j 0).val < 0 + 1 := (h (0 : Fin 3)).2
    omega
  · intro h0 a
    have key : ∀ a : Fin 3, (![0, 0, 0] : Fin 3 → Nat) a ≤ (j a).val
        ∧ (j a).val < (![0, 0, 0] : Fin 3 → Nat) a + S1x16x2048.size a := by
      intro a
      match a with
      | 0 => exact ⟨Nat.zero_le _, by show (j 0).val < 0 + 1; omega⟩
      | 1 => exact ⟨Nat.zero_le _, by show (j 1).val < 0 + 16; omega⟩
      | 2 => exact ⟨Nat.zero_le _, by show (j 2).val < 0 + 2048; omega⟩
    exact key a

theorem mem_slot1 (j : S2x16x2048.Idx) : j ∈ (slot1).view.set ↔ (j 0).val = 1 := by
  show j ∈ (((View.whole cc0_scratch0).slice (Rect.unit (s := S2x16x2048) ![1, 0, 0] S1x16x2048.size
    inb_S2x16x2048_S1x16x2048_1_0_0)).reshape S16x2048 squeezes_S1x16x2048_S16x2048.numel_eq).set ↔ _
  rw [View.set_reshape, View.set_slice_whole, Rect.mem_set_unit]
  have h1 : (j 1).val < 16 := (j 1).isLt
  have h2 : (j 2).val < 2048 := (j 2).isLt
  constructor
  · intro h
    have h0 : 1 ≤ (j 0).val := (h (0 : Fin 3)).1
    have h0' : (j 0).val < 1 + 1 := (h (0 : Fin 3)).2
    omega
  · intro h0 a
    have key : ∀ a : Fin 3, (![1, 0, 0] : Fin 3 → Nat) a ≤ (j a).val
        ∧ (j a).val < (![1, 0, 0] : Fin 3 → Nat) a + S1x16x2048.size a := by
      intro a
      match a with
      | 0 => exact ⟨by show 1 ≤ (j 0).val; omega, by show (j 0).val < 1 + 1; omega⟩
      | 1 => exact ⟨Nat.zero_le _, by show (j 1).val < 0 + 16; omega⟩
      | 2 => exact ⟨Nat.zero_le _, by show (j 2).val < 0 + 2048; omega⟩
    exact key a

/-- The two slots share no element, -/
theorem slots_disjoint : Disjoint (slot0).view.set (slot1).view.set :=
  Finset.disjoint_left.mpr fun j h0 h1 => by
    have e0 := (mem_slot0 j).mp h0
    have e1 := (mem_slot1 j).mp h1
    omega

/-- and every element of the scratch is in one of them. -/
theorem slots_union : (slot0).view.set ∪ (slot1).view.set = Finset.univ := by
  refine Finset.ext fun j => ⟨fun _ => Finset.mem_univ _, fun _ => ?_⟩
  have hj : ((j : S2x16x2048.Idx) 0).val < 2 := ((j : S2x16x2048.Idx) 0).isLt
  rw [Finset.mem_union]
  rcases Nat.lt_or_ge ((j : S2x16x2048.Idx) 0).val 1 with h | h
  · exact Or.inl ((mem_slot0 j).mpr (by omega))
  · exact Or.inr ((mem_slot1 j).mpr (by omega))

theorem scratch_slots (d : Dev nD) (c : Fin τ.nSC) (i : Fin τ.nSub) (f : Buf (Elt F) ((V d c i).loc cc0_scratch0)) :
    ((V d c i).loc cc0_scratch0 ↦{fullShare} f : sProp 𝕄)
      = iprop(((V d c i).loc cc0_scratch0 ↦[(slot0).view.set]{fullShare} f) ∗ (V d c i).loc cc0_scratch0 ↦[(slot1).view.set]{fullShare} f) := by
  have h : ((V d c i).loc cc0_scratch0 ↦[(slot0).view.set ∪ (slot1).view.set]{fullShare} f : sProp 𝕄)
      ⊣⊢ iprop(((V d c i).loc cc0_scratch0 ↦[(slot0).view.set]{fullShare} f) ∗ (V d c i).loc cc0_scratch0 ↦[(slot1).view.set]{fullShare} f) :=
    pointsTo_union slots_disjoint
  show ((V d c i).loc cc0_scratch0 ↦[Finset.univ]{fullShare} f : sProp 𝕄) = _
  rw [← slots_union]
  exact BI.equiv_iff.mp ⟨h.1, h.2⟩

end Cert.Proof.MoveBits
end
-- ==== Proof.BitsTile.lean ====
/-
  A tile's task in the launch theorem's terms. What a tile is handed: its sixteen chunk pairs, and its scoped storage —
  among its own buffers the scratch, which is its two slots, and among its own cells the four transfer counters, at
  zero. The run of the task from these (the body's module) gives back the chunks with the output's holding the
  input's rows, the slots (rejoined into the scratch) and the counters at zero.
-/
import proofs.«201897_g75462575391115_cont_9to1_m_892_24_alg».proof.Proof.BitsBody
import proofs.«201897_g75462575391115_cont_9to1_m_892_24_alg».proof.Proof.BitsCover

noncomputable section

namespace Cert.Proof.MoveBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_singleton]
  rfl

/-- The two slots, held at whatever contents, are the scratch held whole at some contents. -/
theorem slots_join (d : Dev nD) (c : Fin τ.nSC) (i : Fin τ.nSub) :
    iprop((∃ f, (V d c i).loc cc0_scratch0 ↦[(slot0).view.set]{fullShare} f) ∗ (∃ f, (V d c i).loc cc0_scratch0 ↦[(slot1).view.set]{fullShare} f))
      ⊢ (iprop(∃ f, (V d c i).loc cc0_scratch0 ↦{fullShare} f) : sProp 𝕄) := by
  iintro ⟨⟨%g0, H0⟩, ⟨%g1, H1⟩⟩
  ihave H := (pointsTo_join (ℓ := (V d c i).loc cc0_scratch0) (I := (slot0).view.set) (J := (slot1).view.set) (q := fullShare) (f := g0) (g := g1) slots_disjoint) $$ [H0 H1]
  · isplitl [H0] <;> iassumption
  rw [slots_union]
  iexists _; iexact H

variable [FloatOps F]

section Tile

variable (d : Dev nD) (L : grid0.Coords)

omit [FloatOps F] in
/-- The tile's four transfer counters are among its scoped cells: they are them, at zero, and the rest. -/
theorem ownSems0_V4 :
    (ownSems0 (V d (cV L) (jV L)) : sProp 𝕄)
      = iprop(semVal (cellN d L ⟨0, by decide⟩) 0 ∗ semVal (cellN d L ⟨1, by decide⟩) 0 ∗ semVal (cellN d L ⟨2, by decide⟩) 0 ∗ semVal (cellN d L ⟨3, by decide⟩) 0 ∗ (bigSep (((((ownCells (V d (cV L) (jV L))).erase (cellN d L ⟨0, by decide⟩)).erase (cellN d L ⟨1, by decide⟩)).erase (cellN d L ⟨2, by decide⟩)).erase (cellN d L ⟨3, by decide⟩)) fun g => semVal g 0)) := by
  unfold SparseCore.Cfg.ownSems0
  have hm : ∀ k : DmaSem sig, cellN d L k ∈ ownCells (V d (cV L) (jV L)) := fun k =>
    (mem_ownCells (g := cellN d L k)).mpr ⟨rfl, by
      show (SemLoc.dma k : SemLoc sig).isScoped .scVector = true
      revert k; decide⟩
  have hne : ∀ a b : DmaSem sig, a ≠ b → cellN d L a ≠ cellN d L b := fun a b h e => h (SemLoc.dma.inj (Prod.mk.inj e).2)
  rw [SparseCore.bigSep_erase' (hm ⟨0, by decide⟩),
    SparseCore.bigSep_erase' (Finset.mem_erase.mpr ⟨hne ⟨1, by decide⟩ ⟨0, by decide⟩ (by decide), hm ⟨1, by decide⟩⟩),
    SparseCore.bigSep_erase' (Finset.mem_erase.mpr ⟨hne ⟨2, by decide⟩ ⟨1, by decide⟩ (by decide), Finset.mem_erase.mpr ⟨hne ⟨2, by decide⟩ ⟨0, by decide⟩ (by decide), hm ⟨2, by decide⟩⟩⟩),
    SparseCore.bigSep_erase' (Finset.mem_erase.mpr ⟨hne ⟨3, by decide⟩ ⟨2, by decide⟩ (by decide), Finset.mem_erase.mpr ⟨hne ⟨3, by decide⟩ ⟨1, by decide⟩ (by decide), Finset.mem_erase.mpr ⟨hne ⟨3, by decide⟩ ⟨0, by decide⟩ (by decide), hm ⟨3, by decide⟩⟩⟩⟩)]

omit [FloatOps F] in
/-- The scratch is among the tile's own buffers: it is it, at some contents, and the rest. -/
theorem ownBufs_V1 :
    (ownBufs (V d (cV L) (jV L)) : sProp 𝕄)
      = iprop((∃ f, (V d (cV L) (jV L)).loc cc0_scratch0 ↦{fullShare} f) ∗ (bigSep ((ownRefs (τ := τ) (.scVector (cV L) (jV L))).erase ((Proc.scVector (cV L) (jV L)).devRef cc0_scratch0)) fun b => iprop(∃ f, ((d, b) : Loc nD τ sig) ↦{fullShare} f))) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

local notation "xAt(" n "," k ")" => (Memref.slice xW (Rect.unit (s := S8192x2048) (k0_off1 L n) S16x2048.size (k0_off1_inb L k)) (fun _ => rfl))
local notation "oAt(" n "," k ")" => (Memref.slice oW (Rect.unit (s := S8192x2048) (k0_off1 L n) S16x2048.size (k0_off1_inb L k)) (fun _ => rfl))

/-- What the run leaves is what the task owes back: the chunks, the scratch whole again, the counters with the rest of
    the tile's cells, the recorded waits. -/
theorem run_post (O : CellTallies nD τ sig (HIx 1)) (W : Waits sig (HIx 1)) :
    (iprop((((xAt(0#32, 0)).view.loc (V d (cV L) (jV L)) ↦[(xAt(0#32, 0)).view.set]{fullShare} m (xLoc d))
          ∗ ((xAt(16#32, 1)).view.loc (V d (cV L) (jV L)) ↦[(xAt(16#32, 1)).view.set]{fullShare} m (xLoc d))
          ∗ ((xAt(32#32, 2)).view.loc (V d (cV L) (jV L)) ↦[(xAt(32#32, 2)).view.set]{fullShare} m (xLoc d))
          ∗ ((xAt(48#32, 3)).view.loc (V d (cV L) (jV L)) ↦[(xAt(48#32, 3)).view.set]{fullShare} m (xLoc d))
          ∗ ((xAt(64#32, 4)).view.loc (V d (cV L) (jV L)) ↦[(xAt(64#32, 4)).view.set]{fullShare} m (xLoc d))
          ∗ ((xAt(80#32, 5)).view.loc (V d (cV L) (jV L)) ↦[(xAt(80#32, 5)).view.set]{fullShare} m (xLoc d))
          ∗ ((xAt(96#32, 6)).view.loc (V d (cV L) (jV L)) ↦[(xAt(96#32, 6)).view.set]{fullShare} m (xLoc d))
          ∗ ((xAt(112#32, 7)).view.loc (V d (cV L) (jV L)) ↦[(xAt(112#32, 7)).view.set]{fullShare} m (xLoc d))
          ∗ ((xAt(128#32, 8)).view.loc (V d (cV L) (jV L)) ↦[(xAt(128#32, 8)).view.set]{fullShare} m (xLoc d))
          ∗ ((xAt(144#32, 9)).view.loc (V d (cV L) (jV L)) ↦[(xAt(144#32, 9)).view.set]{fullShare} m (xLoc d))
          ∗ ((xAt(160#32, 10)).view.loc (V d (cV L) (jV L)) ↦[(xAt(160#32, 10)).view.set]{fullShare} m (xLoc d))
          ∗ ((xAt(176#32, 11)).view.loc (V d (cV L) (jV L)) ↦[(xAt(176#32, 11)).view.set]{fullShare} m (xLoc d))
          ∗ ((xAt(192#32, 12)).view.loc (V d (cV L) (jV L)) ↦[(xAt(192#32, 12)).view.set]{fullShare} m (xLoc d))
          ∗ ((xAt(208#32, 13)).view.loc (V d (cV L) (jV L)) ↦[(xAt(208#32, 13)).view.set]{fullShare} m (xLoc d))
          ∗ ((xAt(224#32, 14)).view.loc (V d (cV L) (jV L)) ↦[(xAt(224#32, 14)).view.set]{fullShare} m (xLoc d))
          ∗ ((xAt(240#32, 15)).view.loc (V d (cV L) (jV L)) ↦[(xAt(240#32, 15)).view.set]{fullShare} m (xLoc d)))
        ∗ (((oAt(0#32, 0)).view.loc (V d (cV L) (jV L)) ↦[(oAt(0#32, 0)).view.set]{fullShare} xo m d)
          ∗ ((oAt(16#32, 1)).view.loc (V d (cV L) (jV L)) ↦[(oAt(16#32, 1)).view.set]{fullShare} xo m d)
          ∗ ((oAt(32#32, 2)).view.loc (V d (cV L) (jV L)) ↦[(oAt(32#32, 2)).view.set]{fullShare} xo m d)
          ∗ ((oAt(48#32, 3)).view.loc (V d (cV L) (jV L)) ↦[(oAt(48#32, 3)).view.set]{fullShare} xo m d)
          ∗ ((oAt(64#32, 4)).view.loc (V d (cV L) (jV L)) ↦[(oAt(64#32, 4)).view.set]{fullShare} xo m d)
          ∗ ((oAt(80#32, 5)).view.loc (V d (cV L) (jV L)) ↦[(oAt(80#32, 5)).view.set]{fullShare} xo m d)
          ∗ ((oAt(96#32, 6)).view.loc (V d (cV L) (jV L)) ↦[(oAt(96#32, 6)).view.set]{fullShare} xo m d)
          ∗ ((oAt(112#32, 7)).view.loc (V d (cV L) (jV L)) ↦[(oAt(112#32, 7)).view.set]{fullShare} xo m d)
          ∗ ((oAt(128#32, 8)).view.loc (V d (cV L) (jV L)) ↦[(oAt(128#32, 8)).view.set]{fullShare} xo m d)
          ∗ ((oAt(144#32, 9)).view.loc (V d (cV L) (jV L)) ↦[(oAt(144#32, 9)).view.set]{fullShare} xo m d)
          ∗ ((oAt(160#32, 10)).view.loc (V d (cV L) (jV L)) ↦[(oAt(160#32, 10)).view.set]{fullShare} xo m d)
          ∗ ((oAt(176#32, 11)).view.loc (V d (cV L) (jV L)) ↦[(oAt(176#32, 11)).view.set]{fullShare} xo m d)
          ∗ ((oAt(192#32, 12)).view.loc (V d (cV L) (jV L)) ↦[(oAt(192#32, 12)).view.set]{fullShare} xo m d)
          ∗ ((oAt(208#32, 13)).view.loc (V d (cV L) (jV L)) ↦[(oAt(208#32, 13)).view.set]{fullShare} xo m d)
          ∗ ((oAt(224#32, 14)).view.loc (V d (cV L) (jV L)) ↦[(oAt(224#32, 14)).view.set]{fullShare} xo m d)
          ∗ ((oAt(240#32, 15)).view.loc (V d (cV L) (jV L)) ↦[(oAt(240#32, 15)).view.set]{fullShare} xo m d))
        ∗ (∃ f, (slot0).view.loc (V d (cV L) (jV L)) ↦[(slot0).view.set]{fullShare} f)
        ∗ (∃ f, (slot1).view.loc (V d (cV L) (jV L)) ↦[(slot1).view.set]{fullShare} f)
        ∗ semVal (cellN d L ⟨0, by decide⟩) 0 ∗ semVal (cellN d L ⟨1, by decide⟩) 0 ∗ semVal (cellN d L ⟨2, by decide⟩) 0 ∗ semVal (cellN d L ⟨3, by decide⟩) 0
        ∗ (∃ W', ⌜∀ p ∈ W', p ∈ W ∨ p.2 = none⌝ ∗ owes (V d (cV L) (jV L)) O W') ∗ ((bigSep ((ownRefs (τ := τ) (.scVector (cV L) (jV L))).erase ((Proc.scVector (cV L) (jV L)).devRef cc0_scratch0)) fun b => iprop(∃ f, ((d, b) : Loc nD τ sig) ↦{fullShare} f)) ∗ (bigSep (((((ownCells (V d (cV L) (jV L))).erase (cellN d L ⟨0, by decide⟩)).erase (cellN d L ⟨1, by decide⟩)).erase (cellN d L ⟨2, by decide⟩)).erase (cellN d L ⟨3, by decide⟩)) fun g => semVal g 0))) : sProp 𝕄)
      ⊢ iprop(((bigSep Finset.univ fun r : Fin 16 => xLoc d ↦[(xC L r).view.set]{fullShare} m (xLoc d))
            ∗ bigSep Finset.univ fun r : Fin 16 => oLoc d ↦[(oC L r).view.set]{fullShare} xo m d)
          ∗ ((∃ f, (V d (cV L) (jV L)).loc cc0_scratch0 ↦{fullShare} f) ∗ (bigSep ((ownRefs (τ := τ) (.scVector (cV L) (jV L))).erase ((Proc.scVector (cV L) (jV L)).devRef cc0_scratch0)) fun b => iprop(∃ f, ((d, b) : Loc nD τ sig) ↦{fullShare} f)))
          ∗ (semVal (cellN d L ⟨0, by decide⟩) 0 ∗ semVal (cellN d L ⟨1, by decide⟩) 0 ∗ semVal (cellN d L ⟨2, by decide⟩) 0 ∗ semVal (cellN d L ⟨3, by decide⟩) 0 ∗ (bigSep (((((ownCells (V d (cV L) (jV L))).erase (cellN d L ⟨0, by decide⟩)).erase (cellN d L ⟨1, by decide⟩)).erase (cellN d L ⟨2, by decide⟩)).erase (cellN d L ⟨3, by decide⟩)) fun g => semVal g 0))
          ∗ ∃ W', ⌜∀ p ∈ W', p ∈ W ∨ p.2 = none⌝ ∗ owes (V d (cV L) (jV L)) O W') := by
  rw [bigSep_fin16, bigSep_fin16]
  iintro ⟨HX, HOo, Hs0, Hs1, Hc0, Hc1, Hc2, Hc3, HW, Hbufs, Hsems⟩
  isplitl [HX HOo]
  · isplitl [HX]; · iexact HX
    iexact HOo
  isplitl [Hs0 Hs1 Hbufs]
  · isplitl [Hs0 Hs1]
    · iapply (slots_join (F := F) d (cV L) (jV L))
      isplitl [Hs0]; · iexact Hs0
      iexact Hs1
    · iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexact HW

/-- The task of the tile at grid point `L`, in the launch theorem's terms: from its sixteen chunk pairs and its scoped
    storage to the chunks with the output's holding the input's rows, the storage back. -/
theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp ∗ goT m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xW (Memref.isWhole_whole _) oW (Memref.isWhole_whole _) bW (Memref.isWhole_whole _) cc0_scratch1 cc0_scratch2)
          fun _ => iprop(tdT m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V4, ownBufs_V1]
  unfold goT tdT goAt tdAt
  rw [bigSep_sep', bigSep_sep']
  refine BIBase.Entails.trans ?_ (wp_mono frame _ _ fun _ => run_post m d L O W)
  rw [bigSep_fin16, bigSep_fin16]
  iintro ⟨#Hlv, -, ⟨⟨Hx0, Hx1, Hx2, Hx3, Hx4, Hx5, Hx6, Hx7, Hx8, Hx9, Hx10, Hx11, Hx12, Hx13, Hx14, Hx15⟩, ⟨Ho0, Ho1, Ho2, Ho3, Ho4, Ho5, Ho6, Ho7, Ho8, Ho9, Ho10, Ho11, Ho12, Ho13, Ho14, Ho15⟩⟩,
    ⟨⟨%fs, Hs⟩, Hbufs⟩, ⟨Hc0, Hc1, Hc2, Hc3, Hsems⟩, HO⟩
  ihave Hmw := ((K (F := F)).mayWaits_none (thr := (V d (cV L) (jV L))) hO) $$ Hlv
  ihave Hs' := (Entails.of_eq (scratch_slots d (cV L) (jV L) fs)) $$ Hs
  icases Hs' with ⟨Hs0, Hs1⟩
  iapply (tile_run m d L O W fs fs _)
  isplitl [Hmw]; · iexact Hmw
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ho0 Ho1 Ho2 Ho3 Ho4 Ho5 Ho6 Ho7 Ho8 Ho9 Ho10 Ho11 Ho12 Ho13 Ho14 Ho15]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [Hs0]; · iexact Hs0
  isplitl [Hs1]; · iexact Hs1
  isplitl [Hc0]; · iexact Hc0
  isplitl [Hc1]; · iexact Hc1
  isplitl [Hc2]; · iexact Hc2
  isplitl [Hc3]; · iexact Hc3
  isplitl [HO]; · iexact HO
  isplitl [Hbufs]; · iexact Hbufs
  iexact Hsems

end Tile

end Cert.Proof.MoveBits

end
-- ==== Proof.BitsLaunch.lean ====
/-
  The launch: the device's threads run the one vector call. The TensorCore hands each SparseCore the chunk pairs of its
  sixteen tiles (together, over both SparseCores, the two arrays whole: the 512 chunks partition each array), each
  sequencer hands each tile its sixteen pairs, each tile runs its task, and the shares come back the same way with
  every chunk of the output holding the input's rows — so the output array ends holding the input's launch contents
  and the input array is unchanged. The kernel's own transfers need no ghost state from the launch.
-/
import proofs.«201897_g75462575391115_cont_9to1_m_892_24_alg».proof.Proof.BitsTile

noncomputable section

namespace Cert.Proof.MoveBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile hcore0 hsub0 (fun c s => cc0_k (coordsV c s) xW (Memref.isWhole_whole _) oW (Memref.isWhole_whole _)
          bW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's share is, by definition, its sixteen tiles' shares. -/
theorem vecSplit : (K (F := F)).VecSplit' (P m) 0 := by
  intro d c
  show (bigSep Finset.univ fun i : Fin ((K (F := F)).nSub 0) => goT m d (coordsV (Fin.cast nCore_zero c) (Fin.cast nSub_zero i)))
    ⊢ |={Set.univ}=> iprop((bigSep Finset.univ fun i : Fin ((K (F := F)).nSub 0) => goT m d (coordsV (Fin.cast nCore_zero c) (Fin.cast nSub_zero i)))
      ∗ ((bigSep Finset.univ fun i : Fin ((K (F := F)).nSub 0) => tdT m d (coordsV (Fin.cast nCore_zero c) (Fin.cast nSub_zero i)))
          -∗ bigSep Finset.univ fun i : Fin ((K (F := F)).nSub 0) => tdT m d (coordsV (Fin.cast nCore_zero c) (Fin.cast nSub_zero i))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

omit [FloatOps F] in
/-- The chunk pairs of every tile of both SparseCores are the two arrays whole: the 512 chunks partition each. -/
theorem chunks_pair (d : Dev nD) (fx : Buf (Elt F) (xLoc d)) (fo : Buf (Elt F) (oLoc d)) :
    (bigSep Finset.univ fun c : Fin 2 => bigSep Finset.univ fun i : Fin 16 => bigSep Finset.univ fun r : Fin 16 =>
        iprop((xLoc d ↦[(xC (coordsV c i) r).view.set]{fullShare} fx) ∗ oLoc d ↦[(oC (coordsV c i) r).view.set]{fullShare} fo))
      = (iprop((xLoc d ↦{fullShare} fx) ∗ oLoc d ↦{fullShare} fo) : sProp 𝕄) :=
  (bigSep_congr fun c _ => bigSep_congr fun i _ => bigSep_sep' _ _ _).trans
    ((bigSep_congr fun c _ => bigSep_sep' _ _ _).trans ((bigSep_sep' _ _ _).trans (by rw [← x_chunks d fx, ← o_chunks d fo])))

theorem st0_eq (d : Dev nD) : (bigSep Finset.univ fun c : Fin ((K (F := F)).nCore 0) => (P m).st 0 d c)
    = iprop((xLoc d ↦{fullShare} m (xLoc d)) ∗ oLoc d ↦{fullShare} m (oLoc d)) :=
  chunks_pair d (m (xLoc d)) (m (oLoc d))
theorem dn0_eq (d : Dev nD) : (bigSep Finset.univ fun c : Fin ((K (F := F)).nCore 0) => (P m).dn 0 d c)
    = iprop((xLoc d ↦{fullShare} m (xLoc d)) ∗ oLoc d ↦{fullShare} xo m d) :=
  chunks_pair d (m (xLoc d)) (xo m d)

/-- What @main leaves the claim: the input at its launch contents, the output holding them too. -/
abbrev FIN (d : Dev nD) : sProp 𝕄 := iprop((xLoc d ↦{fullShare} m (xLoc d)) ∗ oLoc d ↦{fullShare} xo m d)

/-- @main on device `d`'s TensorCore: the one call, from the two arrays whole and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop := s'.mem.mem (oLoc d) = xo m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := xo m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (oLoc c) = xo m c ∧ r.2.mem (xLoc c) = m (xLoc c)

/-- From any memory with zero counters, every weakly fair execution of the device's threads terminates, nothing faulting,
    with the output array holding the input's launch contents and the input array unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.MoveBits

end
-- ==== Proof.IdealSetup.lean ====
/-
  The idealized kernel as one vector call on two SparseCores of sixteen tiles. Tile (c, s) owns the 256 rows
  [256 (2 s + c), +256) of the input `x` and of the output `o`, cut into sixteen chunks of sixteen rows; chunk r is
  copied from `x` into one of two scratch slots (slot r mod 2) and from there into the same rows of `o`.
  This module: the program in the launch theorem's vocabulary, the ghost state (the handshakes' rounds beside
  the transfers' counters), the chunk and slot views as the body slices them, and what the handshakes carry:
  to a tile its chunks of `x` (kept) and of `o` (at the launch contents), back from it the same chunks of `o`
  holding `x`'s rows.
-/
import proofs.«201897_g75462575391115_cont_9to1_m_892_24_alg».proof.Defs
import Idealize.ShloMosaic.Lib.SparseCore.Launch
import Idealize.ShloMosaic.Lib.Pipeline.Kit
import Idealize.ShloMosaic.Lib.Tactic
import proofs.«201897_g75462575391115_cont_9to1_m_892_24_alg».proof.Proof.Gen.KernelIdeal
import proofs.«201897_g75462575391115_cont_9to1_m_892_24_alg».proof.Proof.Gen.KernelIdeal.Skeleton

noncomputable section

namespace Cert.Proof.MoveIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, the chunks, the slots -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

/-- The input's launch contents, read as contents of the output array (the two arrays have one shape and element type). -/
abbrev xo (d : Dev nD) : Buf (Elt F) (oLoc d) := m (xLoc d)

abbrev xW : Memref sig .scVector .hbm S8192x2048 .f32 := Memref.whole main_arg0_scv
abbrev oW : Memref sig .scVector .hbm S8192x2048 .f32 := Memref.whole main_v0_scv
abbrev bW : Memref sig .scVector .vmem S2x16x2048 .f32 := Memref.whole cc0_scratch0

/-- Chunk `r` of the tile at grid point `L`: sixteen rows of the input from row 512 (L 1) + 256 (L 0) + 16 r, -/
abbrev xC (L : grid0.Coords) (r : Fin 16) : Memref sig .scVector .hbm S16x2048 .f32 :=
  xW.slice (Rect.unit (s := S8192x2048) (k0_off1 L (BitVec.ofNat 32 (16 * r.val))) S16x2048.size (k0_off1_inb L r)) (fun _ => rfl)
/-- and the same rows of the output. -/
abbrev oC (L : grid0.Coords) (r : Fin 16) : Memref sig .scVector .hbm S16x2048 .f32 :=
  oW.slice (Rect.unit (s := S8192x2048) (k0_off1 L (BitVec.ofNat 32 (16 * r.val))) S16x2048.size (k0_off1_inb L r)) (fun _ => rfl)
/-- The scratch's two slots. -/
abbrev slot0 : Memref sig .scVector .vmem S16x2048 .f32 :=
  (bW.slice (Rect.unit (s := S2x16x2048) ![0, 0, 0] S1x16x2048.size inb_S2x16x2048_S1x16x2048_0_0_0) (fun _ => rfl)).squeeze S16x2048 squeezes_S1x16x2048_S16x2048
abbrev slot1 : Memref sig .scVector .vmem S16x2048 .f32 :=
  (bW.slice (Rect.unit (s := S2x16x2048) ![1, 0, 0] S1x16x2048.size inb_S2x16x2048_S1x16x2048_1_0_0) (fun _ => rfl)).squeeze S16x2048 squeezes_S1x16x2048_S16x2048

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## What the handshakes carry -/

/-- Chunk `r` of tile `L` on its way in: the input's rows at their launch contents, the output's at theirs. -/
def goAt (d : Dev nD) (L : grid0.Coords) (r : Fin 16) : sProp 𝕄 :=
  iprop((xLoc d ↦[(xC L r).view.set]{fullShare} m (xLoc d)) ∗ oLoc d ↦[(oC L r).view.set]{fullShare} m (oLoc d))
/-- The same chunk on its way back: the output's rows hold the input's. -/
def tdAt (d : Dev nD) (L : grid0.Coords) (r : Fin 16) : sProp 𝕄 :=
  iprop((xLoc d ↦[(xC L r).view.set]{fullShare} m (xLoc d)) ∗ oLoc d ↦[(oC L r).view.set]{fullShare} xo m d)

def goT (d : Dev nD) (L : grid0.Coords) : sProp 𝕄 := bigSep Finset.univ fun r : Fin 16 => goAt m d L r
def tdT (d : Dev nD) (L : grid0.Coords) : sProp 𝕄 := bigSep Finset.univ fun r : Fin 16 => tdAt m d L r

/-- A SparseCore is handed what its sixteen tiles are, and hands back what they do. -/
def P : (K (F := F)).Pay (nD := nD) (Val := Elt F) (Name := ℕ) (U := UU) where
  st := fun q d c => match q with
    | 0 => bigSep Finset.univ fun i : Fin ((K (F := F)).nSub 0) => goT m d (coordsV (Fin.cast nCore_zero c) (Fin.cast nSub_zero i))
  dn := fun q d c => match q with
    | 0 => bigSep Finset.univ fun i : Fin ((K (F := F)).nSub 0) => tdT m d (coordsV (Fin.cast nCore_zero c) (Fin.cast nSub_zero i))
  go := fun q d c i => match q with | 0 => goT m d (coordsV (Fin.cast nCore_zero c) (Fin.cast nSub_zero i))
  td := fun q d c i => match q with | 0 => tdT m d (coordsV (Fin.cast nCore_zero c) (Fin.cast nSub_zero i))
  x := fun _ _ => iprop(emp)

instance goAt_storable (d : Dev nD) (L : grid0.Coords) (r : Fin 16) : BI.Storable (upEmb : UEmb _ 𝕄) (goAt m d L r) := by
  unfold goAt; infer_instance
instance tdAt_storable (d : Dev nD) (L : grid0.Coords) (r : Fin 16) : BI.Storable (upEmb : UEmb _ 𝕄) (tdAt m d L r) := by
  unfold tdAt; infer_instance
instance goT_storable (d : Dev nD) (L : grid0.Coords) : BI.Storable (upEmb : UEmb _ 𝕄) (goT m d L) := by
  unfold goT; infer_instance
instance tdT_storable (d : Dev nD) (L : grid0.Coords) : BI.Storable (upEmb : UEmb _ 𝕄) (tdT m d L) := by
  unfold tdT; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.MoveIdeal

end
-- ==== Proof.IdealBody.lean ====
/-
  One tile's task, run once at a symbolic grid point. The tile starts the copies of its first two chunks of the
  input into the two scratch slots; then, chunk by chunk, it waits for the chunk to have landed in its slot, starts
  the copy of the slot into the same rows of the output, and (while chunks remain) waits for that copy before it
  refills the slot with the chunk two further on; at the end it waits for the last two copies out. Each of the
  four counters carries at most one copy at a time, and no copy's source or destination is touched while it is
  under way, so every chunk of the output ends holding exactly what was read from the same rows of the input.
-/
import proofs.«201897_g75462575391115_cont_9to1_m_892_24_alg».proof.Proof.IdealSetup

noncomputable section

namespace Cert.Proof.MoveIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- What a whole-view piece at the head of a list of pieces reads back: its payload, whatever was written before. -/
theorem read_writes_whole_cons {sig' : RefSig} {κ : Kind} {sp : Space} {s : Shape} {e : EltTy} {Val : EltTy → Type}
    (v : View sig' κ sp s e) (f : v.ty.Contents Val) (x : s.Idx → Val e) (Ls : List (View.Piece Val s e)) :
    v.read Val (v.writes Val f (⟨Rect.whole s, x⟩ :: Ls)) = x := by
  funext y
  have h := View.read_writes_cons_emb v f (Rect.whole s) x Ls y
  rwa [Rect.emb_whole_apply] at h

/-- Held by a view's own elements, two contents that the view reads alike are one assertion. -/
theorem pts_of_read_eq [∀ e, Nonempty (Elt F e)] {cs : Space} {s : Shape} {e : EltTy} (c : Thread nD τ) (M : Memref sig c.2.kind cs s e)
    (g1 g2 : Buf (Elt F) (M.view.loc c)) (h : M.view.read (Elt F) g1 = M.view.read (Elt F) g2) :
    (M.view.loc c ↦[M.view.set]{fullShare} g1 : sProp 𝕄) = M.view.loc c ↦[M.view.set]{fullShare} g2 := by
  rw [Idealize.ShloMosaic.pointsTo_rep c M g1, Idealize.ShloMosaic.pointsTo_rep c M g2, h]

/-- Recording one more wait at no call's index keeps the recorded waits among the given ones and those. -/
theorem waits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev cellN (k : DmaSem sig) : GSem nD τ sig := (V d (cV L) (jV L), SemLoc.dma k)

/-- A chunk of the output written whole with what a slot read back after a chunk of the input was written whole
    into it holds that chunk of the input, when the two chunks are the same rows of their arrays. -/
theorem o_done [∀ e, Nonempty (Elt F e)] (Mo Mx : Memref sig .scVector .hbm S16x2048 .f32) (Ms : Memref sig .scVector .vmem S16x2048 .f32)
    (fo : Buf (Elt F) (Mo.view.loc (V d (cV L) (jV L)))) (fs : Buf (Elt F) (Ms.view.loc (V d (cV L) (jV L)))) (fx : Buf (Elt F) (Mx.view.loc (V d (cV L) (jV L))))
    (g : Buf (Elt F) (Mo.view.loc (V d (cV L) (jV L)))) (Ls : List (View.Piece (Elt F) S16x2048 .f32))
    (hx : Mo.view.read (Elt F) g = Mx.view.read (Elt F) fx) :
    (Mo.view.loc (V d (cV L) (jV L)) ↦[Mo.view.set]{fullShare} Mo.view.writes (Elt F) fo
        [⟨Rect.whole S16x2048, ReadAs.same.apply (Ms.view.read (Elt F) (Ms.view.writes (Elt F) fs
          (⟨Rect.whole S16x2048, ReadAs.same.apply (Mx.view.read (Elt F) fx)⟩ :: Ls)))⟩] : sProp 𝕄)
      ⊢ Mo.view.loc (V d (cV L) (jV L)) ↦[Mo.view.set]{fullShare} g := by
  refine Entails.of_eq (pts_of_read_eq (V d (cV L) (jV L)) Mo _ g ?_)
  rw [Idealize.ShloMosaic.View.read_writes_whole, ReadAs.apply_same, read_writes_whole_cons, ReadAs.apply_same, hx]

local notation "xAt(" n "," k ")" => (Memref.slice xW (Rect.unit (s := S8192x2048) (k0_off1 L n) S16x2048.size (k0_off1_inb L k)) (fun _ => rfl))
local notation "oAt(" n "," k ")" => (Memref.slice oW (Rect.unit (s := S8192x2048) (k0_off1 L n) S16x2048.size (k0_off1_inb L k)) (fun _ => rfl))

/-- The same rows of the two arrays: reading the input's launch contents as the output's through the output's chunk
    is reading them through the input's. -/
theorem read_xo (n : BitVec 32) (k : Fin 16) (h : ∀ a, k0_off1 L n a + S16x2048.size a ≤ S8192x2048.size a) :
    (Memref.slice oW (Rect.unit (s := S8192x2048) (k0_off1 L n) S16x2048.size h) (fun _ => rfl)).view.read (Elt F) (xo m d)
      = (Memref.slice xW (Rect.unit (s := S8192x2048) (k0_off1 L n) S16x2048.size h) (fun _ => rfl)).view.read (Elt F) (m (xLoc d)) := rfl

/-- One tile's task, run once at a symbolic grid point: the sixteen chunks of the input it was handed are kept, the
    sixteen chunks of the output end holding the input's rows, the two slots, the four counters and what the
    tile owes come back. -/
theorem tile_run [∀ e, Nonempty (Elt F e)] (O : CellTallies nD τ sig (HIx 1)) (W : Waits sig (HIx 1))
    (f0 : Buf (Elt F) ((V d (cV L) (jV L)).loc cc0_scratch0)) (f1 : Buf (Elt F) ((V d (cV L) (jV L)).loc cc0_scratch0)) (R : sProp 𝕄) :
    iprop((Transfers.MayWaits (V d (cV L) (jV L)) (none : HIx 1) O : sProp 𝕄)
        ∗ (((xAt(0#32, 0)).view.loc (V d (cV L) (jV L)) ↦[(xAt(0#32, 0)).view.set]{fullShare} m (xLoc d))
          ∗ ((xAt(16#32, 1)).view.loc (V d (cV L) (jV L)) ↦[(xAt(16#32, 1)).view.set]{fullShare} m (xLoc d))
          ∗ ((xAt(32#32, 2)).view.loc (V d (cV L) (jV L)) ↦[(xAt(32#32, 2)).view.set]{fullShare} m (xLoc d))
          ∗ ((xAt(48#32, 3)).view.loc (V d (cV L) (jV L)) ↦[(xAt(48#32, 3)).view.set]{fullShare} m (xLoc d))
          ∗ ((xAt(64#32, 4)).view.loc (V d (cV L) (jV L)) ↦[(xAt(64#32, 4)).view.set]{fullShare} m (xLoc d))
          ∗ ((xAt(80#32, 5)).view.loc (V d (cV L) (jV L)) ↦[(xAt(80#32, 5)).view.set]{fullShare} m (xLoc d))
          ∗ ((xAt(96#32, 6)).view.loc (V d (cV L) (jV L)) ↦[(xAt(96#32, 6)).view.set]{fullShare} m (xLoc d))
          ∗ ((xAt(112#32, 7)).view.loc (V d (cV L) (jV L)) ↦[(xAt(112#32, 7)).view.set]{fullShare} m (xLoc d))
          ∗ ((xAt(128#32, 8)).view.loc (V d (cV L) (jV L)) ↦[(xAt(128#32, 8)).view.set]{fullShare} m (xLoc d))
          ∗ ((xAt(144#32, 9)).view.loc (V d (cV L) (jV L)) ↦[(xAt(144#32, 9)).view.set]{fullShare} m (xLoc d))
          ∗ ((xAt(160#32, 10)).view.loc (V d (cV L) (jV L)) ↦[(xAt(160#32, 10)).view.set]{fullShare} m (xLoc d))
          ∗ ((xAt(176#32, 11)).view.loc (V d (cV L) (jV L)) ↦[(xAt(176#32, 11)).view.set]{fullShare} m (xLoc d))
          ∗ ((xAt(192#32, 12)).view.loc (V d (cV L) (jV L)) ↦[(xAt(192#32, 12)).view.set]{fullShare} m (xLoc d))
          ∗ ((xAt(208#32, 13)).view.loc (V d (cV L) (jV L)) ↦[(xAt(208#32, 13)).view.set]{fullShare} m (xLoc d))
          ∗ ((xAt(224#32, 14)).view.loc (V d (cV L) (jV L)) ↦[(xAt(224#32, 14)).view.set]{fullShare} m (xLoc d))
          ∗ ((xAt(240#32, 15)).view.loc (V d (cV L) (jV L)) ↦[(xAt(240#32, 15)).view.set]{fullShare} m (xLoc d)))
        ∗ (((oAt(0#32, 0)).view.loc (V d (cV L) (jV L)) ↦[(oAt(0#32, 0)).view.set]{fullShare} m (oLoc d))
          ∗ ((oAt(16#32, 1)).view.loc (V d (cV L) (jV L)) ↦[(oAt(16#32, 1)).view.set]{fullShare} m (oLoc d))
          ∗ ((oAt(32#32, 2)).view.loc (V d (cV L) (jV L)) ↦[(oAt(32#32, 2)).view.set]{fullShare} m (oLoc d))
          ∗ ((oAt(48#32, 3)).view.loc (V d (cV L) (jV L)) ↦[(oAt(48#32, 3)).view.set]{fullShare} m (oLoc d))
          ∗ ((oAt(64#32, 4)).view.loc (V d (cV L) (jV L)) ↦[(oAt(64#32, 4)).view.set]{fullShare} m (oLoc d))
          ∗ ((oAt(80#32, 5)).view.loc (V d (cV L) (jV L)) ↦[(oAt(80#32, 5)).view.set]{fullShare} m (oLoc d))
          ∗ ((oAt(96#32, 6)).view.loc (V d (cV L) (jV L)) ↦[(oAt(96#32, 6)).view.set]{fullShare} m (oLoc d))
          ∗ ((oAt(112#32, 7)).view.loc (V d (cV L) (jV L)) ↦[(oAt(112#32, 7)).view.set]{fullShare} m (oLoc d))
          ∗ ((oAt(128#32, 8)).view.loc (V d (cV L) (jV L)) ↦[(oAt(128#32, 8)).view.set]{fullShare} m (oLoc d))
          ∗ ((oAt(144#32, 9)).view.loc (V d (cV L) (jV L)) ↦[(oAt(144#32, 9)).view.set]{fullShare} m (oLoc d))
          ∗ ((oAt(160#32, 10)).view.loc (V d (cV L) (jV L)) ↦[(oAt(160#32, 10)).view.set]{fullShare} m (oLoc d))
          ∗ ((oAt(176#32, 11)).view.loc (V d (cV L) (jV L)) ↦[(oAt(176#32, 11)).view.set]{fullShare} m (oLoc d))
          ∗ ((oAt(192#32, 12)).view.loc (V d (cV L) (jV L)) ↦[(oAt(192#32, 12)).view.set]{fullShare} m (oLoc d))
          ∗ ((oAt(208#32, 13)).view.loc (V d (cV L) (jV L)) ↦[(oAt(208#32, 13)).view.set]{fullShare} m (oLoc d))
          ∗ ((oAt(224#32, 14)).view.loc (V d (cV L) (jV L)) ↦[(oAt(224#32, 14)).view.set]{fullShare} m (oLoc d))
          ∗ ((oAt(240#32, 15)).view.loc (V d (cV L) (jV L)) ↦[(oAt(240#32, 15)).view.set]{fullShare} m (oLoc d)))
        ∗ ((slot0).view.loc (V d (cV L) (jV L)) ↦[(slot0).view.set]{fullShare} f0)
        ∗ ((slot1).view.loc (V d (cV L) (jV L)) ↦[(slot1).view.set]{fullShare} f1)
        ∗ semVal (cellN d L ⟨0, by decide⟩) 0 ∗ semVal (cellN d L ⟨1, by decide⟩) 0 ∗ semVal (cellN d L ⟨2, by decide⟩) 0 ∗ semVal (cellN d L ⟨3, by decide⟩) 0
        ∗ owes (V d (cV L) (jV L)) O W ∗ R)
      ⊢ wp frame (wpE (defs₀ (F := F)) 𝒱₀ (V d (cV L) (jV L)) none) Set.univ
          (cc0_k L xW (Memref.isWhole_whole _) oW (Memref.isWhole_whole _) bW (Memref.isWhole_whole _) cc0_scratch1 cc0_scratch2)
          fun _ => iprop((((xAt(0#32, 0)).view.loc (V d (cV L) (jV L)) ↦[(xAt(0#32, 0)).view.set]{fullShare} m (xLoc d))
          ∗ ((xAt(16#32, 1)).view.loc (V d (cV L) (jV L)) ↦[(xAt(16#32, 1)).view.set]{fullShare} m (xLoc d))
          ∗ ((xAt(32#32, 2)).view.loc (V d (cV L) (jV L)) ↦[(xAt(32#32, 2)).view.set]{fullShare} m (xLoc d))
          ∗ ((xAt(48#32, 3)).view.loc (V d (cV L) (jV L)) ↦[(xAt(48#32, 3)).view.set]{fullShare} m (xLoc d))
          ∗ ((xAt(64#32, 4)).view.loc (V d (cV L) (jV L)) ↦[(xAt(64#32, 4)).view.set]{fullShare} m (xLoc d))
          ∗ ((xAt(80#32, 5)).view.loc (V d (cV L) (jV L)) ↦[(xAt(80#32, 5)).view.set]{fullShare} m (xLoc d))
          ∗ ((xAt(96#32, 6)).view.loc (V d (cV L) (jV L)) ↦[(xAt(96#32, 6)).view.set]{fullShare} m (xLoc d))
          ∗ ((xAt(112#32, 7)).view.loc (V d (cV L) (jV L)) ↦[(xAt(112#32, 7)).view.set]{fullShare} m (xLoc d))
          ∗ ((xAt(128#32, 8)).view.loc (V d (cV L) (jV L)) ↦[(xAt(128#32, 8)).view.set]{fullShare} m (xLoc d))
          ∗ ((xAt(144#32, 9)).view.loc (V d (cV L) (jV L)) ↦[(xAt(144#32, 9)).view.set]{fullShare} m (xLoc d))
          ∗ ((xAt(160#32, 10)).view.loc (V d (cV L) (jV L)) ↦[(xAt(160#32, 10)).view.set]{fullShare} m (xLoc d))
          ∗ ((xAt(176#32, 11)).view.loc (V d (cV L) (jV L)) ↦[(xAt(176#32, 11)).view.set]{fullShare} m (xLoc d))
          ∗ ((xAt(192#32, 12)).view.loc (V d (cV L) (jV L)) ↦[(xAt(192#32, 12)).view.set]{fullShare} m (xLoc d))
          ∗ ((xAt(208#32, 13)).view.loc (V d (cV L) (jV L)) ↦[(xAt(208#32, 13)).view.set]{fullShare} m (xLoc d))
          ∗ ((xAt(224#32, 14)).view.loc (V d (cV L) (jV L)) ↦[(xAt(224#32, 14)).view.set]{fullShare} m (xLoc d))
          ∗ ((xAt(240#32, 15)).view.loc (V d (cV L) (jV L)) ↦[(xAt(240#32, 15)).view.set]{fullShare} m (xLoc d)))
        ∗ (((oAt(0#32, 0)).view.loc (V d (cV L) (jV L)) ↦[(oAt(0#32, 0)).view.set]{fullShare} xo m d)
          ∗ ((oAt(16#32, 1)).view.loc (V d (cV L) (jV L)) ↦[(oAt(16#32, 1)).view.set]{fullShare} xo m d)
          ∗ ((oAt(32#32, 2)).view.loc (V d (cV L) (jV L)) ↦[(oAt(32#32, 2)).view.set]{fullShare} xo m d)
          ∗ ((oAt(48#32, 3)).view.loc (V d (cV L) (jV L)) ↦[(oAt(48#32, 3)).view.set]{fullShare} xo m d)
          ∗ ((oAt(64#32, 4)).view.loc (V d (cV L) (jV L)) ↦[(oAt(64#32, 4)).view.set]{fullShare} xo m d)
          ∗ ((oAt(80#32, 5)).view.loc (V d (cV L) (jV L)) ↦[(oAt(80#32, 5)).view.set]{fullShare} xo m d)
          ∗ ((oAt(96#32, 6)).view.loc (V d (cV L) (jV L)) ↦[(oAt(96#32, 6)).view.set]{fullShare} xo m d)
          ∗ ((oAt(112#32, 7)).view.loc (V d (cV L) (jV L)) ↦[(oAt(112#32, 7)).view.set]{fullShare} xo m d)
          ∗ ((oAt(128#32, 8)).view.loc (V d (cV L) (jV L)) ↦[(oAt(128#32, 8)).view.set]{fullShare} xo m d)
          ∗ ((oAt(144#32, 9)).view.loc (V d (cV L) (jV L)) ↦[(oAt(144#32, 9)).view.set]{fullShare} xo m d)
          ∗ ((oAt(160#32, 10)).view.loc (V d (cV L) (jV L)) ↦[(oAt(160#32, 10)).view.set]{fullShare} xo m d)
          ∗ ((oAt(176#32, 11)).view.loc (V d (cV L) (jV L)) ↦[(oAt(176#32, 11)).view.set]{fullShare} xo m d)
          ∗ ((oAt(192#32, 12)).view.loc (V d (cV L) (jV L)) ↦[(oAt(192#32, 12)).view.set]{fullShare} xo m d)
          ∗ ((oAt(208#32, 13)).view.loc (V d (cV L) (jV L)) ↦[(oAt(208#32, 13)).view.set]{fullShare} xo m d)
          ∗ ((oAt(224#32, 14)).view.loc (V d (cV L) (jV L)) ↦[(oAt(224#32, 14)).view.set]{fullShare} xo m d)
          ∗ ((oAt(240#32, 15)).view.loc (V d (cV L) (jV L)) ↦[(oAt(240#32, 15)).view.set]{fullShare} xo m d))
        ∗ (∃ f, (slot0).view.loc (V d (cV L) (jV L)) ↦[(slot0).view.set]{fullShare} f)
        ∗ (∃ f, (slot1).view.loc (V d (cV L) (jV L)) ↦[(slot1).view.set]{fullShare} f)
        ∗ semVal (cellN d L ⟨0, by decide⟩) 0 ∗ semVal (cellN d L ⟨1, by decide⟩) 0 ∗ semVal (cellN d L ⟨2, by decide⟩) 0 ∗ semVal (cellN d L ⟨3, by decide⟩) 0
        ∗ (∃ W', ⌜∀ p ∈ W', p ∈ W ∨ p.2 = none⌝ ∗ owes (V d (cV L) (jV L)) O W') ∗ R) := by
  unfold cc0_k
  iintro ⟨#Hmw, ⟨Hx0, Hx1, Hx2, Hx3, Hx4, Hx5, Hx6, Hx7, Hx8, Hx9, Hx10, Hx11, Hx12, Hx13, Hx14, Hx15⟩,
    ⟨Ho0, Ho1, Ho2, Ho3, Ho4, Ho5, Ho6, Ho7, Ho8, Ho9, Ho10, Ho11, Ho12, Ho13, Ho14, Ho15⟩, Hs0, Hs1, Hc0, Hc1, Hc2, Hc3, HO, HR⟩
  sl_exec_parts (disch := exact View.amount_pos _ _ (show 0 < S16x2048.numel by decide))
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ho0 Ho1 Ho2 Ho3 Ho4 Ho5 Ho6 Ho7 Ho8 Ho9 Ho10 Ho11 Ho12 Ho13 Ho14 Ho15]
  · isplitl [Ho0]
    · iapply (o_done d L (oAt(0#32, 0)) (xAt(0#32, 0)) slot0 _ _ (m (xLoc d)) (xo m d) _ (read_xo m d L 0#32 0 _)); iexact Ho0
    isplitl [Ho1]
    · iapply (o_done d L (oAt(16#32, 1)) (xAt(16#32, 1)) slot1 _ _ (m (xLoc d)) (xo m d) _ (read_xo m d L 16#32 1 _)); iexact Ho1
    isplitl [Ho2]
    · iapply (o_done d L (oAt(32#32, 2)) (xAt(32#32, 2)) slot0 _ _ (m (xLoc d)) (xo m d) _ (read_xo m d L 32#32 2 _)); iexact Ho2
    isplitl [Ho3]
    · iapply (o_done d L (oAt(48#32, 3)) (xAt(48#32, 3)) slot1 _ _ (m (xLoc d)) (xo m d) _ (read_xo m d L 48#32 3 _)); iexact Ho3
    isplitl [Ho4]
    · iapply (o_done d L (oAt(64#32, 4)) (xAt(64#32, 4)) slot0 _ _ (m (xLoc d)) (xo m d) _ (read_xo m d L 64#32 4 _)); iexact Ho4
    isplitl [Ho5]
    · iapply (o_done d L (oAt(80#32, 5)) (xAt(80#32, 5)) slot1 _ _ (m (xLoc d)) (xo m d) _ (read_xo m d L 80#32 5 _)); iexact Ho5
    isplitl [Ho6]
    · iapply (o_done d L (oAt(96#32, 6)) (xAt(96#32, 6)) slot0 _ _ (m (xLoc d)) (xo m d) _ (read_xo m d L 96#32 6 _)); iexact Ho6
    isplitl [Ho7]
    · iapply (o_done d L (oAt(112#32, 7)) (xAt(112#32, 7)) slot1 _ _ (m (xLoc d)) (xo m d) _ (read_xo m d L 112#32 7 _)); iexact Ho7
    isplitl [Ho8]
    · iapply (o_done d L (oAt(128#32, 8)) (xAt(128#32, 8)) slot0 _ _ (m (xLoc d)) (xo m d) _ (read_xo m d L 128#32 8 _)); iexact Ho8
    isplitl [Ho9]
    · iapply (o_done d L (oAt(144#32, 9)) (xAt(144#32, 9)) slot1 _ _ (m (xLoc d)) (xo m d) _ (read_xo m d L 144#32 9 _)); iexact Ho9
    isplitl [Ho10]
    · iapply (o_done d L (oAt(160#32, 10)) (xAt(160#32, 10)) slot0 _ _ (m (xLoc d)) (xo m d) _ (read_xo m d L 160#32 10 _)); iexact Ho10
    isplitl [Ho11]
    · iapply (o_done d L (oAt(176#32, 11)) (xAt(176#32, 11)) slot1 _ _ (m (xLoc d)) (xo m d) _ (read_xo m d L 176#32 11 _)); iexact Ho11
    isplitl [Ho12]
    · iapply (o_done d L (oAt(192#32, 12)) (xAt(192#32, 12)) slot0 _ _ (m (xLoc d)) (xo m d) _ (read_xo m d L 192#32 12 _)); iexact Ho12
    isplitl [Ho13]
    · iapply (o_done d L (oAt(208#32, 13)) (xAt(208#32, 13)) slot1 _ _ (m (xLoc d)) (xo m d) _ (read_xo m d L 208#32 13 _)); iexact Ho13
    isplitl [Ho14]
    · iapply (o_done d L (oAt(224#32, 14)) (xAt(224#32, 14)) slot0 _ _ (m (xLoc d)) (xo m d) _ (read_xo m d L 224#32 14 _)); iexact Ho14
    iapply (o_done d L (oAt(240#32, 15)) (xAt(240#32, 15)) slot1 _ _ (m (xLoc d)) (xo m d) _ (read_xo m d L 240#32 15 _)); iexact Ho15
  isplitl [Hs0]; · iexists _; iexact Hs0
  isplitl [Hs1]; · iexists _; iexact Hs1
  isplitl [Hc0]; · iexact Hc0
  isplitl [Hc1]; · iexact Hc1
  isplitl [Hc2]; · iexact Hc2
  isplitl [Hc3]; · iexact Hc3
  isplitl [HO]
  · iexists _; isplitr
    rotate_left
    · iexact HO
    · ipureintro
      repeat (first | exact fun p hp => Or.inl hp | refine waits_ins _ ?_)
  iexact HR

end Tile

end Cert.Proof.MoveIdeal

end
-- ==== Proof.IdealCover.lean ====
import proofs.«201897_g75462575391115_cont_9to1_m_892_24_alg».proof.Proof.IdealSetup
noncomputable section
namespace Cert.Proof.MoveIdeal
open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
variable {F : FTy → Type}
local notation "𝕄" => MT nD τ sig (Idealize.ShloMosaic.SparseCore.Cfg.HIx 1) (Elt F) ℕ UU ℕ

/-!
  Set algebra for the two arrays and the scratch.

  The arrays `x` and `o` have 8192 rows. Chunk r of SparseCore c, tile i is the sixteen rows from row
  512 i + 256 c + 16 r (c < 2, i < 16, r < 16): these 512 blocks of sixteen consecutive rows are pairwise disjoint
  (a row n lies in the one with i = n / 512, c = n % 512 / 256, r = n % 256 / 16) and cover the array, so the points-to
  of the whole array is the separating conjunction of the points-tos of the chunks.

  The scratch has first axis of size two; slot k is the elements whose first coordinate is k. The two are disjoint and
  cover the scratch, so its points-to is the separating conjunction of the slots' points-tos.
-/

/-- Membership in chunk r of the tile at grid point L: the row lies in the sixteen rows from 512 (L 1) + 256 (L 0) + 16 r. -/
theorem mem_xC (L : grid0.Coords) (r : Fin 16) (j : S8192x2048.Idx) :
    j ∈ (xC L r).view.set ↔ 512 * (L 1).val + 256 * (L 0).val + 16 * r.val ≤ (j 0).val
      ∧ (j 0).val < 512 * (L 1).val + 256 * (L 0).val + 16 * r.val + 16 := by
  show j ∈ ((View.whole main_arg0_scv).slice (Rect.unit (s := S8192x2048) (k0_off1 L (BitVec.ofNat 32 (16 * r.val))) S16x2048.size (k0_off1_inb L r))).set ↔ _
  rw [View.set_slice_whole, Rect.mem_set_unit, k0_off1_eq L r]
  have h1 : (j 1).val < 2048 := (j 1).isLt
  constructor
  · intro h
    exact h (0 : Fin 2)
  · rintro ⟨h0, h0'⟩ a
    have key : ∀ a : Fin 2, (![512 * (L 1).val + 256 * (L 0).val + 16 * r.val, 0] : Fin 2 → Nat) a ≤ (j a).val
        ∧ (j a).val < (![512 * (L 1).val + 256 * (L 0).val + 16 * r.val, 0] : Fin 2 → Nat) a + S16x2048.size a := by
      rw [Fin.forall_fin_two]
      exact ⟨⟨h0, h0'⟩, Nat.zero_le _, by show (j 1).val < 0 + 2048; omega⟩
    exact key a

theorem mem_oC (L : grid0.Coords) (r : Fin 16) (j : S8192x2048.Idx) :
    j ∈ (oC L r).view.set ↔ 512 * (L 1).val + 256 * (L 0).val + 16 * r.val ≤ (j 0).val
      ∧ (j 0).val < 512 * (L 1).val + 256 * (L 0).val + 16 * r.val + 16 := by
  show j ∈ ((View.whole main_v0_scv).slice (Rect.unit (s := S8192x2048) (k0_off1 L (BitVec.ofNat 32 (16 * r.val))) S16x2048.size (k0_off1_inb L r))).set ↔ _
  rw [View.set_slice_whole, Rect.mem_set_unit, k0_off1_eq L r]
  have h1 : (j 1).val < 2048 := (j 1).isLt
  constructor
  · intro h
    exact h (0 : Fin 2)
  · rintro ⟨h0, h0'⟩ a
    have key : ∀ a : Fin 2, (![512 * (L 1).val + 256 * (L 0).val + 16 * r.val, 0] : Fin 2 → Nat) a ≤ (j a).val
        ∧ (j a).val < (![512 * (L 1).val + 256 * (L 0).val + 16 * r.val, 0] : Fin 2 → Nat) a + S16x2048.size a := by
      rw [Fin.forall_fin_two]
      exact ⟨⟨h0, h0'⟩, Nat.zero_le _, by show (j 1).val < 0 + 2048; omega⟩
    exact key a

/-- The same for the chunk of SparseCore c, tile i. -/
theorem mem_xCV (c : Fin 2) (i : Fin 16) (r : Fin 16) (j : S8192x2048.Idx) :
    j ∈ (xC (coordsV c i) r).view.set ↔ 512 * i.val + 256 * c.val + 16 * r.val ≤ (j 0).val
      ∧ (j 0).val < 512 * i.val + 256 * c.val + 16 * r.val + 16 := mem_xC (coordsV c i) r j
theorem mem_oCV (c : Fin 2) (i : Fin 16) (r : Fin 16) (j : S8192x2048.Idx) :
    j ∈ (oC (coordsV c i) r).view.set ↔ 512 * i.val + 256 * c.val + 16 * r.val ≤ (j 0).val
      ∧ (j 0).val < 512 * i.val + 256 * c.val + 16 * r.val + 16 := mem_oC (coordsV c i) r j

theorem x_chunks (d : Dev nD) (f : Buf (Elt F) (xLoc d)) :
    (xLoc d ↦{fullShare} f : sProp 𝕄)
      = bigSep Finset.univ fun c : Fin 2 => bigSep Finset.univ fun i : Fin 16 => bigSep Finset.univ fun r : Fin 16 =>
          xLoc d ↦[(xC (coordsV c i) r).view.set]{fullShare} f := by
  classical
  have hcov : (Finset.univ : Finset (Idx (xLoc d)))
      = (Finset.univ : Finset (Fin 2 × Fin 16 × Fin 16)).biUnion fun t => (xC (coordsV t.1 t.2.1) t.2.2).view.set := by
    refine Finset.ext fun j => ⟨fun _ => ?_, fun _ => Finset.mem_univ _⟩
    have hj : ((j : S8192x2048.Idx) 0).val < 8192 := ((j : S8192x2048.Idx) 0).isLt
    rw [Finset.mem_biUnion]
    refine ⟨(⟨((j : S8192x2048.Idx) 0).val % 512 / 256, by omega⟩, ⟨((j : S8192x2048.Idx) 0).val / 512, by omega⟩,
      ⟨((j : S8192x2048.Idx) 0).val % 256 / 16, by omega⟩), Finset.mem_univ _, ?_⟩
    refine (mem_xCV ⟨((j : S8192x2048.Idx) 0).val % 512 / 256, by omega⟩ ⟨((j : S8192x2048.Idx) 0).val / 512, by omega⟩
      ⟨((j : S8192x2048.Idx) 0).val % 256 / 16, by omega⟩ j).mpr ?_
    show 512 * (((j : S8192x2048.Idx) 0).val / 512) + 256 * (((j : S8192x2048.Idx) 0).val % 512 / 256)
          + 16 * (((j : S8192x2048.Idx) 0).val % 256 / 16) ≤ ((j : S8192x2048.Idx) 0).val
      ∧ ((j : S8192x2048.Idx) 0).val < 512 * (((j : S8192x2048.Idx) 0).val / 512) + 256 * (((j : S8192x2048.Idx) 0).val % 512 / 256)
          + 16 * (((j : S8192x2048.Idx) 0).val % 256 / 16) + 16
    omega
  have hdisj : ∀ t ∈ (Finset.univ : Finset (Fin 2 × Fin 16 × Fin 16)), ∀ t' ∈ (Finset.univ : Finset (Fin 2 × Fin 16 × Fin 16)), t ≠ t' →
      Disjoint ((xC (coordsV t.1 t.2.1) t.2.2).view.set : Finset (Idx (xLoc d))) (xC (coordsV t'.1 t'.2.1) t'.2.2).view.set := by
    rintro ⟨c, i, r⟩ - ⟨c', i', r'⟩ - hne
    refine Finset.disjoint_left.mpr fun j hj hj' => hne ?_
    have h := (mem_xCV c i r j).mp hj
    have h' := (mem_xCV c' i' r' j).mp hj'
    have hc := c.isLt; have hc' := c'.isLt; have hr := r.isLt; have hr' := r'.isLt
    have hi : i = i' := Fin.ext (by omega)
    have hcc : c = c' := Fin.ext (by omega)
    have hrr : r = r' := Fin.ext (by omega)
    rw [hi, hcc, hrr]
  show (xLoc d ↦[Finset.univ]{fullShare} f : sProp 𝕄) = _
  rw [hcov, pointsTo_biUnion _ _ hdisj, bigSep_univ_prod]
  refine congrArg _ (funext fun c => ?_)
  rw [bigSep_univ_prod]

theorem o_chunks (d : Dev nD) (f : Buf (Elt F) (oLoc d)) :
    (oLoc d ↦{fullShare} f : sProp 𝕄)
      = bigSep Finset.univ fun c : Fin 2 => bigSep Finset.univ fun i : Fin 16 => bigSep Finset.univ fun r : Fin 16 =>
          oLoc d ↦[(oC (coordsV c i) r).view.set]{fullShare} f := by
  classical
  have hcov : (Finset.univ : Finset (Idx (oLoc d)))
      = (Finset.univ : Finset (Fin 2 × Fin 16 × Fin 16)).biUnion fun t => (oC (coordsV t.1 t.2.1) t.2.2).view.set := by
    refine Finset.ext fun j => ⟨fun _ => ?_, fun _ => Finset.mem_univ _⟩
    have hj : ((j : S8192x2048.Idx) 0).val < 8192 := ((j : S8192x2048.Idx) 0).isLt
    rw [Finset.mem_biUnion]
    refine ⟨(⟨((j : S8192x2048.Idx) 0).val % 512 / 256, by omega⟩, ⟨((j : S8192x2048.Idx) 0).val / 512, by omega⟩,
      ⟨((j : S8192x2048.Idx) 0).val % 256 / 16, by omega⟩), Finset.mem_univ _, ?_⟩
    refine (mem_oCV ⟨((j : S8192x2048.Idx) 0).val % 512 / 256, by omega⟩ ⟨((j : S8192x2048.Idx) 0).val / 512, by omega⟩
      ⟨((j : S8192x2048.Idx) 0).val % 256 / 16, by omega⟩ j).mpr ?_
    show 512 * (((j : S8192x2048.Idx) 0).val / 512) + 256 * (((j : S8192x2048.Idx) 0).val % 512 / 256)
          + 16 * (((j : S8192x2048.Idx) 0).val % 256 / 16) ≤ ((j : S8192x2048.Idx) 0).val
      ∧ ((j : S8192x2048.Idx) 0).val < 512 * (((j : S8192x2048.Idx) 0).val / 512) + 256 * (((j : S8192x2048.Idx) 0).val % 512 / 256)
          + 16 * (((j : S8192x2048.Idx) 0).val % 256 / 16) + 16
    omega
  have hdisj : ∀ t ∈ (Finset.univ : Finset (Fin 2 × Fin 16 × Fin 16)), ∀ t' ∈ (Finset.univ : Finset (Fin 2 × Fin 16 × Fin 16)), t ≠ t' →
      Disjoint ((oC (coordsV t.1 t.2.1) t.2.2).view.set : Finset (Idx (oLoc d))) (oC (coordsV t'.1 t'.2.1) t'.2.2).view.set := by
    rintro ⟨c, i, r⟩ - ⟨c', i', r'⟩ - hne
    refine Finset.disjoint_left.mpr fun j hj hj' => hne ?_
    have h := (mem_oCV c i r j).mp hj
    have h' := (mem_oCV c' i' r' j).mp hj'
    have hc := c.isLt; have hc' := c'.isLt; have hr := r.isLt; have hr' := r'.isLt
    have hi : i = i' := Fin.ext (by omega)
    have hcc : c = c' := Fin.ext (by omega)
    have hrr : r = r' := Fin.ext (by omega)
    rw [hi, hcc, hrr]
  show (oLoc d ↦[Finset.univ]{fullShare} f : sProp 𝕄) = _
  rw [hcov, pointsTo_biUnion _ _ hdisj, bigSep_univ_prod]
  refine congrArg _ (funext fun c => ?_)
  rw [bigSep_univ_prod]

/-- Slot k of the scratch is the elements whose first coordinate is k: a squeeze keeps the elements of the slice it squeezes. -/
theorem mem_slot0 (j : S2x16x2048.Idx) : j ∈ (slot0).view.set ↔ (j 0).val = 0 := by
  show j ∈ (((View.whole cc0_scratch0).slice (Rect.unit (s := S2x16x2048) ![0, 0, 0] S1x16x2048.size
    inb_S2x16x2048_S1x16x2048_0_0_0)).reshape S16x2048 squeezes_S1x16x2048_S16x2048.numel_eq).set ↔ _
  rw [View.set_reshape, View.set_slice_whole, Rect.mem_set_unit]
  have h1 : (j 1).val < 16 := (j 1).isLt
  have h2 : (j 2).val < 2048 := (j 2).isLt
  constructor
  · intro h
    have h0 : (j 0).val < 0 + 1 := (h (0 : Fin 3)).2
    omega
  · intro h0 a
    have key : ∀ a : Fin 3, (![0, 0, 0] : Fin 3 → Nat) a ≤ (j a).val
        ∧ (j a).val < (![0, 0, 0] : Fin 3 → Nat) a + S1x16x2048.size a := by
      intro a
      match a with
      | 0 => exact ⟨Nat.zero_le _, by show (j 0).val < 0 + 1; omega⟩
      | 1 => exact ⟨Nat.zero_le _, by show (j 1).val < 0 + 16; omega⟩
      | 2 => exact ⟨Nat.zero_le _, by show (j 2).val < 0 + 2048; omega⟩
    exact key a

theorem mem_slot1 (j : S2x16x2048.Idx) : j ∈ (slot1).view.set ↔ (j 0).val = 1 := by
  show j ∈ (((View.whole cc0_scratch0).slice (Rect.unit (s := S2x16x2048) ![1, 0, 0] S1x16x2048.size
    inb_S2x16x2048_S1x16x2048_1_0_0)).reshape S16x2048 squeezes_S1x16x2048_S16x2048.numel_eq).set ↔ _
  rw [View.set_reshape, View.set_slice_whole, Rect.mem_set_unit]
  have h1 : (j 1).val < 16 := (j 1).isLt
  have h2 : (j 2).val < 2048 := (j 2).isLt
  constructor
  · intro h
    have h0 : 1 ≤ (j 0).val := (h (0 : Fin 3)).1
    have h0' : (j 0).val < 1 + 1 := (h (0 : Fin 3)).2
    omega
  · intro h0 a
    have key : ∀ a : Fin 3, (![1, 0, 0] : Fin 3 → Nat) a ≤ (j a).val
        ∧ (j a).val < (![1, 0, 0] : Fin 3 → Nat) a + S1x16x2048.size a := by
      intro a
      match a with
      | 0 => exact ⟨by show 1 ≤ (j 0).val; omega, by show (j 0).val < 1 + 1; omega⟩
      | 1 => exact ⟨Nat.zero_le _, by show (j 1).val < 0 + 16; omega⟩
      | 2 => exact ⟨Nat.zero_le _, by show (j 2).val < 0 + 2048; omega⟩
    exact key a

/-- The two slots share no element, -/
theorem slots_disjoint : Disjoint (slot0).view.set (slot1).view.set :=
  Finset.disjoint_left.mpr fun j h0 h1 => by
    have e0 := (mem_slot0 j).mp h0
    have e1 := (mem_slot1 j).mp h1
    omega

/-- and every element of the scratch is in one of them. -/
theorem slots_union : (slot0).view.set ∪ (slot1).view.set = Finset.univ := by
  refine Finset.ext fun j => ⟨fun _ => Finset.mem_univ _, fun _ => ?_⟩
  have hj : ((j : S2x16x2048.Idx) 0).val < 2 := ((j : S2x16x2048.Idx) 0).isLt
  rw [Finset.mem_union]
  rcases Nat.lt_or_ge ((j : S2x16x2048.Idx) 0).val 1 with h | h
  · exact Or.inl ((mem_slot0 j).mpr (by omega))
  · exact Or.inr ((mem_slot1 j).mpr (by omega))

theorem scratch_slots (d : Dev nD) (c : Fin τ.nSC) (i : Fin τ.nSub) (f : Buf (Elt F) ((V d c i).loc cc0_scratch0)) :
    ((V d c i).loc cc0_scratch0 ↦{fullShare} f : sProp 𝕄)
      = iprop(((V d c i).loc cc0_scratch0 ↦[(slot0).view.set]{fullShare} f) ∗ (V d c i).loc cc0_scratch0 ↦[(slot1).view.set]{fullShare} f) := by
  have h : ((V d c i).loc cc0_scratch0 ↦[(slot0).view.set ∪ (slot1).view.set]{fullShare} f : sProp 𝕄)
      ⊣⊢ iprop(((V d c i).loc cc0_scratch0 ↦[(slot0).view.set]{fullShare} f) ∗ (V d c i).loc cc0_scratch0 ↦[(slot1).view.set]{fullShare} f) :=
    pointsTo_union slots_disjoint
  show ((V d c i).loc cc0_scratch0 ↦[Finset.univ]{fullShare} f : sProp 𝕄) = _
  rw [← slots_union]
  exact BI.equiv_iff.mp ⟨h.1, h.2⟩

end Cert.Proof.MoveIdeal
end
-- ==== Proof.IdealTile.lean ====
/-
  A tile's task in the launch theorem's terms. What a tile is handed: its sixteen chunk pairs, and its scoped storage —
  among its own buffers the scratch, which is its two slots, and among its own cells the four transfer counters, at
  zero. The run of the task from these (the body's module) gives back the chunks with the output's holding the
  input's rows, the slots (rejoined into the scratch) and the counters at zero.
-/
import proofs.«201897_g75462575391115_cont_9to1_m_892_24_alg».proof.Proof.IdealBody
import proofs.«201897_g75462575391115_cont_9to1_m_892_24_alg».proof.Proof.IdealCover

noncomputable section

namespace Cert.Proof.MoveIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_singleton]
  rfl

/-- The two slots, held at whatever contents, are the scratch held whole at some contents. -/
theorem slots_join (d : Dev nD) (c : Fin τ.nSC) (i : Fin τ.nSub) :
    iprop((∃ f, (V d c i).loc cc0_scratch0 ↦[(slot0).view.set]{fullShare} f) ∗ (∃ f, (V d c i).loc cc0_scratch0 ↦[(slot1).view.set]{fullShare} f))
      ⊢ (iprop(∃ f, (V d c i).loc cc0_scratch0 ↦{fullShare} f) : sProp 𝕄) := by
  iintro ⟨⟨%g0, H0⟩, ⟨%g1, H1⟩⟩
  ihave H := (pointsTo_join (ℓ := (V d c i).loc cc0_scratch0) (I := (slot0).view.set) (J := (slot1).view.set) (q := fullShare) (f := g0) (g := g1) slots_disjoint) $$ [H0 H1]
  · isplitl [H0] <;> iassumption
  rw [slots_union]
  iexists _; iexact H

variable [FloatOps F]

section Tile

variable (d : Dev nD) (L : grid0.Coords)

omit [FloatOps F] in
/-- The tile's four transfer counters are among its scoped cells: they are them, at zero, and the rest. -/
theorem ownSems0_V4 :
    (ownSems0 (V d (cV L) (jV L)) : sProp 𝕄)
      = iprop(semVal (cellN d L ⟨0, by decide⟩) 0 ∗ semVal (cellN d L ⟨1, by decide⟩) 0 ∗ semVal (cellN d L ⟨2, by decide⟩) 0 ∗ semVal (cellN d L ⟨3, by decide⟩) 0 ∗ (bigSep (((((ownCells (V d (cV L) (jV L))).erase (cellN d L ⟨0, by decide⟩)).erase (cellN d L ⟨1, by decide⟩)).erase (cellN d L ⟨2, by decide⟩)).erase (cellN d L ⟨3, by decide⟩)) fun g => semVal g 0)) := by
  unfold SparseCore.Cfg.ownSems0
  have hm : ∀ k : DmaSem sig, cellN d L k ∈ ownCells (V d (cV L) (jV L)) := fun k =>
    (mem_ownCells (g := cellN d L k)).mpr ⟨rfl, by
      show (SemLoc.dma k : SemLoc sig).isScoped .scVector = true
      revert k; decide⟩
  have hne : ∀ a b : DmaSem sig, a ≠ b → cellN d L a ≠ cellN d L b := fun a b h e => h (SemLoc.dma.inj (Prod.mk.inj e).2)
  rw [SparseCore.bigSep_erase' (hm ⟨0, by decide⟩),
    SparseCore.bigSep_erase' (Finset.mem_erase.mpr ⟨hne ⟨1, by decide⟩ ⟨0, by decide⟩ (by decide), hm ⟨1, by decide⟩⟩),
    SparseCore.bigSep_erase' (Finset.mem_erase.mpr ⟨hne ⟨2, by decide⟩ ⟨1, by decide⟩ (by decide), Finset.mem_erase.mpr ⟨hne ⟨2, by decide⟩ ⟨0, by decide⟩ (by decide), hm ⟨2, by decide⟩⟩⟩),
    SparseCore.bigSep_erase' (Finset.mem_erase.mpr ⟨hne ⟨3, by decide⟩ ⟨2, by decide⟩ (by decide), Finset.mem_erase.mpr ⟨hne ⟨3, by decide⟩ ⟨1, by decide⟩ (by decide), Finset.mem_erase.mpr ⟨hne ⟨3, by decide⟩ ⟨0, by decide⟩ (by decide), hm ⟨3, by decide⟩⟩⟩⟩)]

omit [FloatOps F] in
/-- The scratch is among the tile's own buffers: it is it, at some contents, and the rest. -/
theorem ownBufs_V1 :
    (ownBufs (V d (cV L) (jV L)) : sProp 𝕄)
      = iprop((∃ f, (V d (cV L) (jV L)).loc cc0_scratch0 ↦{fullShare} f) ∗ (bigSep ((ownRefs (τ := τ) (.scVector (cV L) (jV L))).erase ((Proc.scVector (cV L) (jV L)).devRef cc0_scratch0)) fun b => iprop(∃ f, ((d, b) : Loc nD τ sig) ↦{fullShare} f))) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

local notation "xAt(" n "," k ")" => (Memref.slice xW (Rect.unit (s := S8192x2048) (k0_off1 L n) S16x2048.size (k0_off1_inb L k)) (fun _ => rfl))
local notation "oAt(" n "," k ")" => (Memref.slice oW (Rect.unit (s := S8192x2048) (k0_off1 L n) S16x2048.size (k0_off1_inb L k)) (fun _ => rfl))

/-- What the run leaves is what the task owes back: the chunks, the scratch whole again, the counters with the rest of
    the tile's cells, the recorded waits. -/
theorem run_post (O : CellTallies nD τ sig (HIx 1)) (W : Waits sig (HIx 1)) :
    (iprop((((xAt(0#32, 0)).view.loc (V d (cV L) (jV L)) ↦[(xAt(0#32, 0)).view.set]{fullShare} m (xLoc d))
          ∗ ((xAt(16#32, 1)).view.loc (V d (cV L) (jV L)) ↦[(xAt(16#32, 1)).view.set]{fullShare} m (xLoc d))
          ∗ ((xAt(32#32, 2)).view.loc (V d (cV L) (jV L)) ↦[(xAt(32#32, 2)).view.set]{fullShare} m (xLoc d))
          ∗ ((xAt(48#32, 3)).view.loc (V d (cV L) (jV L)) ↦[(xAt(48#32, 3)).view.set]{fullShare} m (xLoc d))
          ∗ ((xAt(64#32, 4)).view.loc (V d (cV L) (jV L)) ↦[(xAt(64#32, 4)).view.set]{fullShare} m (xLoc d))
          ∗ ((xAt(80#32, 5)).view.loc (V d (cV L) (jV L)) ↦[(xAt(80#32, 5)).view.set]{fullShare} m (xLoc d))
          ∗ ((xAt(96#32, 6)).view.loc (V d (cV L) (jV L)) ↦[(xAt(96#32, 6)).view.set]{fullShare} m (xLoc d))
          ∗ ((xAt(112#32, 7)).view.loc (V d (cV L) (jV L)) ↦[(xAt(112#32, 7)).view.set]{fullShare} m (xLoc d))
          ∗ ((xAt(128#32, 8)).view.loc (V d (cV L) (jV L)) ↦[(xAt(128#32, 8)).view.set]{fullShare} m (xLoc d))
          ∗ ((xAt(144#32, 9)).view.loc (V d (cV L) (jV L)) ↦[(xAt(144#32, 9)).view.set]{fullShare} m (xLoc d))
          ∗ ((xAt(160#32, 10)).view.loc (V d (cV L) (jV L)) ↦[(xAt(160#32, 10)).view.set]{fullShare} m (xLoc d))
          ∗ ((xAt(176#32, 11)).view.loc (V d (cV L) (jV L)) ↦[(xAt(176#32, 11)).view.set]{fullShare} m (xLoc d))
          ∗ ((xAt(192#32, 12)).view.loc (V d (cV L) (jV L)) ↦[(xAt(192#32, 12)).view.set]{fullShare} m (xLoc d))
          ∗ ((xAt(208#32, 13)).view.loc (V d (cV L) (jV L)) ↦[(xAt(208#32, 13)).view.set]{fullShare} m (xLoc d))
          ∗ ((xAt(224#32, 14)).view.loc (V d (cV L) (jV L)) ↦[(xAt(224#32, 14)).view.set]{fullShare} m (xLoc d))
          ∗ ((xAt(240#32, 15)).view.loc (V d (cV L) (jV L)) ↦[(xAt(240#32, 15)).view.set]{fullShare} m (xLoc d)))
        ∗ (((oAt(0#32, 0)).view.loc (V d (cV L) (jV L)) ↦[(oAt(0#32, 0)).view.set]{fullShare} xo m d)
          ∗ ((oAt(16#32, 1)).view.loc (V d (cV L) (jV L)) ↦[(oAt(16#32, 1)).view.set]{fullShare} xo m d)
          ∗ ((oAt(32#32, 2)).view.loc (V d (cV L) (jV L)) ↦[(oAt(32#32, 2)).view.set]{fullShare} xo m d)
          ∗ ((oAt(48#32, 3)).view.loc (V d (cV L) (jV L)) ↦[(oAt(48#32, 3)).view.set]{fullShare} xo m d)
          ∗ ((oAt(64#32, 4)).view.loc (V d (cV L) (jV L)) ↦[(oAt(64#32, 4)).view.set]{fullShare} xo m d)
          ∗ ((oAt(80#32, 5)).view.loc (V d (cV L) (jV L)) ↦[(oAt(80#32, 5)).view.set]{fullShare} xo m d)
          ∗ ((oAt(96#32, 6)).view.loc (V d (cV L) (jV L)) ↦[(oAt(96#32, 6)).view.set]{fullShare} xo m d)
          ∗ ((oAt(112#32, 7)).view.loc (V d (cV L) (jV L)) ↦[(oAt(112#32, 7)).view.set]{fullShare} xo m d)
          ∗ ((oAt(128#32, 8)).view.loc (V d (cV L) (jV L)) ↦[(oAt(128#32, 8)).view.set]{fullShare} xo m d)
          ∗ ((oAt(144#32, 9)).view.loc (V d (cV L) (jV L)) ↦[(oAt(144#32, 9)).view.set]{fullShare} xo m d)
          ∗ ((oAt(160#32, 10)).view.loc (V d (cV L) (jV L)) ↦[(oAt(160#32, 10)).view.set]{fullShare} xo m d)
          ∗ ((oAt(176#32, 11)).view.loc (V d (cV L) (jV L)) ↦[(oAt(176#32, 11)).view.set]{fullShare} xo m d)
          ∗ ((oAt(192#32, 12)).view.loc (V d (cV L) (jV L)) ↦[(oAt(192#32, 12)).view.set]{fullShare} xo m d)
          ∗ ((oAt(208#32, 13)).view.loc (V d (cV L) (jV L)) ↦[(oAt(208#32, 13)).view.set]{fullShare} xo m d)
          ∗ ((oAt(224#32, 14)).view.loc (V d (cV L) (jV L)) ↦[(oAt(224#32, 14)).view.set]{fullShare} xo m d)
          ∗ ((oAt(240#32, 15)).view.loc (V d (cV L) (jV L)) ↦[(oAt(240#32, 15)).view.set]{fullShare} xo m d))
        ∗ (∃ f, (slot0).view.loc (V d (cV L) (jV L)) ↦[(slot0).view.set]{fullShare} f)
        ∗ (∃ f, (slot1).view.loc (V d (cV L) (jV L)) ↦[(slot1).view.set]{fullShare} f)
        ∗ semVal (cellN d L ⟨0, by decide⟩) 0 ∗ semVal (cellN d L ⟨1, by decide⟩) 0 ∗ semVal (cellN d L ⟨2, by decide⟩) 0 ∗ semVal (cellN d L ⟨3, by decide⟩) 0
        ∗ (∃ W', ⌜∀ p ∈ W', p ∈ W ∨ p.2 = none⌝ ∗ owes (V d (cV L) (jV L)) O W') ∗ ((bigSep ((ownRefs (τ := τ) (.scVector (cV L) (jV L))).erase ((Proc.scVector (cV L) (jV L)).devRef cc0_scratch0)) fun b => iprop(∃ f, ((d, b) : Loc nD τ sig) ↦{fullShare} f)) ∗ (bigSep (((((ownCells (V d (cV L) (jV L))).erase (cellN d L ⟨0, by decide⟩)).erase (cellN d L ⟨1, by decide⟩)).erase (cellN d L ⟨2, by decide⟩)).erase (cellN d L ⟨3, by decide⟩)) fun g => semVal g 0))) : sProp 𝕄)
      ⊢ iprop(((bigSep Finset.univ fun r : Fin 16 => xLoc d ↦[(xC L r).view.set]{fullShare} m (xLoc d))
            ∗ bigSep Finset.univ fun r : Fin 16 => oLoc d ↦[(oC L r).view.set]{fullShare} xo m d)
          ∗ ((∃ f, (V d (cV L) (jV L)).loc cc0_scratch0 ↦{fullShare} f) ∗ (bigSep ((ownRefs (τ := τ) (.scVector (cV L) (jV L))).erase ((Proc.scVector (cV L) (jV L)).devRef cc0_scratch0)) fun b => iprop(∃ f, ((d, b) : Loc nD τ sig) ↦{fullShare} f)))
          ∗ (semVal (cellN d L ⟨0, by decide⟩) 0 ∗ semVal (cellN d L ⟨1, by decide⟩) 0 ∗ semVal (cellN d L ⟨2, by decide⟩) 0 ∗ semVal (cellN d L ⟨3, by decide⟩) 0 ∗ (bigSep (((((ownCells (V d (cV L) (jV L))).erase (cellN d L ⟨0, by decide⟩)).erase (cellN d L ⟨1, by decide⟩)).erase (cellN d L ⟨2, by decide⟩)).erase (cellN d L ⟨3, by decide⟩)) fun g => semVal g 0))
          ∗ ∃ W', ⌜∀ p ∈ W', p ∈ W ∨ p.2 = none⌝ ∗ owes (V d (cV L) (jV L)) O W') := by
  rw [bigSep_fin16, bigSep_fin16]
  iintro ⟨HX, HOo, Hs0, Hs1, Hc0, Hc1, Hc2, Hc3, HW, Hbufs, Hsems⟩
  isplitl [HX HOo]
  · isplitl [HX]; · iexact HX
    iexact HOo
  isplitl [Hs0 Hs1 Hbufs]
  · isplitl [Hs0 Hs1]
    · iapply (slots_join (F := F) d (cV L) (jV L))
      isplitl [Hs0]; · iexact Hs0
      iexact Hs1
    · iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexact HW

/-- The task of the tile at grid point `L`, in the launch theorem's terms: from its sixteen chunk pairs and its scoped
    storage to the chunks with the output's holding the input's rows, the storage back. -/
theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp ∗ goT m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xW (Memref.isWhole_whole _) oW (Memref.isWhole_whole _) bW (Memref.isWhole_whole _) cc0_scratch1 cc0_scratch2)
          fun _ => iprop(tdT m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V4, ownBufs_V1]
  unfold goT tdT goAt tdAt
  rw [bigSep_sep', bigSep_sep']
  refine BIBase.Entails.trans ?_ (wp_mono frame _ _ fun _ => run_post m d L O W)
  rw [bigSep_fin16, bigSep_fin16]
  iintro ⟨#Hlv, -, ⟨⟨Hx0, Hx1, Hx2, Hx3, Hx4, Hx5, Hx6, Hx7, Hx8, Hx9, Hx10, Hx11, Hx12, Hx13, Hx14, Hx15⟩, ⟨Ho0, Ho1, Ho2, Ho3, Ho4, Ho5, Ho6, Ho7, Ho8, Ho9, Ho10, Ho11, Ho12, Ho13, Ho14, Ho15⟩⟩,
    ⟨⟨%fs, Hs⟩, Hbufs⟩, ⟨Hc0, Hc1, Hc2, Hc3, Hsems⟩, HO⟩
  ihave Hmw := ((K (F := F)).mayWaits_none (thr := (V d (cV L) (jV L))) hO) $$ Hlv
  ihave Hs' := (Entails.of_eq (scratch_slots d (cV L) (jV L) fs)) $$ Hs
  icases Hs' with ⟨Hs0, Hs1⟩
  iapply (tile_run m d L O W fs fs _)
  isplitl [Hmw]; · iexact Hmw
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  isplitl [Ho0 Ho1 Ho2 Ho3 Ho4 Ho5 Ho6 Ho7 Ho8 Ho9 Ho10 Ho11 Ho12 Ho13 Ho14 Ho15]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  isplitl [Hs0]; · iexact Hs0
  isplitl [Hs1]; · iexact Hs1
  isplitl [Hc0]; · iexact Hc0
  isplitl [Hc1]; · iexact Hc1
  isplitl [Hc2]; · iexact Hc2
  isplitl [Hc3]; · iexact Hc3
  isplitl [HO]; · iexact HO
  isplitl [Hbufs]; · iexact Hbufs
  iexact Hsems

end Tile

end Cert.Proof.MoveIdeal

end
-- ==== Proof.IdealLaunch.lean ====
/-
  The launch: the device's threads run the one vector call. The TensorCore hands each SparseCore the chunk pairs of its
  sixteen tiles (together, over both SparseCores, the two arrays whole: the 512 chunks partition each array), each
  sequencer hands each tile its sixteen pairs, each tile runs its task, and the shares come back the same way with
  every chunk of the output holding the input's rows — so the output array ends holding the input's launch contents
  and the input array is unchanged. The kernel's own transfers need no ghost state from the launch.
-/
import proofs.«201897_g75462575391115_cont_9to1_m_892_24_alg».proof.Proof.IdealTile

noncomputable section

namespace Cert.Proof.MoveIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

theorem defs₀_vector (c : Fin τ.nSC) (s : Fin τ.nSub) :
    defs₀ (F := F) (.scVector c s) 0 ()
      = SparseCore.onTile hcore0 hsub0 (fun c s => cc0_k (coordsV c s) xW (Memref.isWhole_whole _) oW (Memref.isWhole_whole _)
          bW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's share is, by definition, its sixteen tiles' shares. -/
theorem vecSplit : (K (F := F)).VecSplit' (P m) 0 := by
  intro d c
  show (bigSep Finset.univ fun i : Fin ((K (F := F)).nSub 0) => goT m d (coordsV (Fin.cast nCore_zero c) (Fin.cast nSub_zero i)))
    ⊢ |={Set.univ}=> iprop((bigSep Finset.univ fun i : Fin ((K (F := F)).nSub 0) => goT m d (coordsV (Fin.cast nCore_zero c) (Fin.cast nSub_zero i)))
      ∗ ((bigSep Finset.univ fun i : Fin ((K (F := F)).nSub 0) => tdT m d (coordsV (Fin.cast nCore_zero c) (Fin.cast nSub_zero i)))
          -∗ bigSep Finset.univ fun i : Fin ((K (F := F)).nSub 0) => tdT m d (coordsV (Fin.cast nCore_zero c) (Fin.cast nSub_zero i))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

omit [FloatOps F] in
/-- The chunk pairs of every tile of both SparseCores are the two arrays whole: the 512 chunks partition each. -/
theorem chunks_pair (d : Dev nD) (fx : Buf (Elt F) (xLoc d)) (fo : Buf (Elt F) (oLoc d)) :
    (bigSep Finset.univ fun c : Fin 2 => bigSep Finset.univ fun i : Fin 16 => bigSep Finset.univ fun r : Fin 16 =>
        iprop((xLoc d ↦[(xC (coordsV c i) r).view.set]{fullShare} fx) ∗ oLoc d ↦[(oC (coordsV c i) r).view.set]{fullShare} fo))
      = (iprop((xLoc d ↦{fullShare} fx) ∗ oLoc d ↦{fullShare} fo) : sProp 𝕄) :=
  (bigSep_congr fun c _ => bigSep_congr fun i _ => bigSep_sep' _ _ _).trans
    ((bigSep_congr fun c _ => bigSep_sep' _ _ _).trans ((bigSep_sep' _ _ _).trans (by rw [← x_chunks d fx, ← o_chunks d fo])))

theorem st0_eq (d : Dev nD) : (bigSep Finset.univ fun c : Fin ((K (F := F)).nCore 0) => (P m).st 0 d c)
    = iprop((xLoc d ↦{fullShare} m (xLoc d)) ∗ oLoc d ↦{fullShare} m (oLoc d)) :=
  chunks_pair d (m (xLoc d)) (m (oLoc d))
theorem dn0_eq (d : Dev nD) : (bigSep Finset.univ fun c : Fin ((K (F := F)).nCore 0) => (P m).dn 0 d c)
    = iprop((xLoc d ↦{fullShare} m (xLoc d)) ∗ oLoc d ↦{fullShare} xo m d) :=
  chunks_pair d (m (xLoc d)) (xo m d)

/-- What @main leaves the claim: the input at its launch contents, the output holding them too. -/
abbrev FIN (d : Dev nD) : sProp 𝕄 := iprop((xLoc d ↦{fullShare} m (xLoc d)) ∗ oLoc d ↦{fullShare} xo m d)

/-- @main on device `d`'s TensorCore: the one call, from the two arrays whole and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop := s'.mem.mem (oLoc d) = xo m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := xo m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (oLoc c) = xo m c ∧ r.2.mem (xLoc c) = m (xLoc c)

/-- From any memory with zero counters, every weakly fair execution of the device's threads terminates, nothing faulting,
    with the output array holding the input's launch contents and the input array unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.MoveIdeal

end
-- ==== Proof.RefRun.lean ====
/-
  The reference returns its argument: its @main has no operation. Every weakly fair execution therefore ends at once,
  with the argument array (which is also the result) at its launch contents.
-/
import proofs.«201897_g75462575391115_cont_9to1_m_892_24_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations: none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := trivial

/-- From any memory with zero counters, every weakly fair execution of @main terminates with the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans rfl)
    (run_seq scopedRefs_eq scopedSems_eq defs main (fun _ => ops) main_eq (fun _ => ops_sub) m ρ)

end Cert.ReferenceIdeal.RefValue

end
-- ==== Proof.lean ====
/-
  The kernel copies its input: on each of the two SparseCores, each of the sixteen tiles moves its 256 rows of the
  f32[8192, 2048] input into the same rows of the output, sixteen rows at a time through a two-slot scratch; the
  32 × 16 chunks partition the rows, so the output ends holding the input. The reference returns its argument.

  The three frames: the kernel's run (at the word level and at the extended reals: one text, the float instance a
  parameter, since no float operation occurs) and the reference's run, with the values dropped. The idealization
  rewrote nothing. At the extended reals the kernel's result array ends at the input's launch contents, which is what
  the reference's result — its own argument, agreeing with the kernel's — is. Finiteness of the input is not used:
  the data is moved, never computed on.
-/
import proofs.«201897_g75462575391115_cont_9to1_m_892_24_alg».proof.Defs
import proofs.«201897_g75462575391115_cont_9to1_m_892_24_alg».proof.Proof.Gen.Kernel
import proofs.«201897_g75462575391115_cont_9to1_m_892_24_alg».proof.Proof.Gen.Kernel.Skeleton
import proofs.«201897_g75462575391115_cont_9to1_m_892_24_alg».proof.Proof.Gen.KernelIdeal
import proofs.«201897_g75462575391115_cont_9to1_m_892_24_alg».proof.Proof.Gen.KernelIdeal.Skeleton
import proofs.«201897_g75462575391115_cont_9to1_m_892_24_alg».proof.Proof.Gen.ReferenceIdeal
import proofs.«201897_g75462575391115_cont_9to1_m_892_24_alg».proof.Proof.Gen.Pre_finite_inputs
import proofs.«201897_g75462575391115_cont_9to1_m_892_24_alg».proof.Proof.BitsLaunch
import proofs.«201897_g75462575391115_cont_9to1_m_892_24_alg».proof.Proof.IdealLaunch
import proofs.«201897_g75462575391115_cont_9to1_m_892_24_alg».proof.Proof.RefRun
import Idealize.ShloMosaic.Adequacy
import Idealize.ShloMosaic.Init

noncomputable section

namespace Cert.Proof

open Idealize.ShloMosaic Idealize.SL.Sem

/-- The kernel as printed runs to the end, nothing faulting, its input unchanged. -/
theorem frame_k : Cert.frame_Kernel := fun m ρ _ =>
  (θ_run Cert.Kernel.defs _ _).mono (fun _ h c => (h c).2) (Cert.Proof.MoveBits.run_main (F := Bits) m ρ)

/-- So does the idealized kernel. -/
theorem frame_ki : Cert.frame_KernelIdeal := fun m ρ _ =>
  (θ_run Cert.KernelIdeal.defs _ _).mono (fun _ h c => (h c).2) (Cert.Proof.MoveIdeal.run_main (F := Ideal) m ρ)

/-- So does the reference, which does nothing. -/
theorem frame_ri : Cert.frame_ReferenceIdeal := fun m ρ _ => Cert.ReferenceIdeal.RefValue.run (F := Ideal) m ρ

/-- The idealization rewrote no operation. -/
theorem preserves : Cert.preserves_Kernel_KernelIdeal := trivial

/-- From memories agreeing on the input, the idealized kernel's output array and the reference's result (its argument)
    both end at the input's launch contents. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    (θ_run Cert.KernelIdeal.defs _ _).mono (fun _ h c => h c) (Cert.Proof.MoveIdeal.run_main (F := Ideal) m ρ), ?_⟩
  exact (θ_run Cert.ReferenceIdeal.defs _ _).mono (fun _ h c => ⟨(h c).trans (hagree c), h c⟩)
    (Cert.ReferenceIdeal.RefValue.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
